-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1048576x18 : Shape := ⟨2, ![1048576, 18]⟩
abbrev S64x18 : Shape := ⟨2, ![64, 18]⟩
abbrev S64 : Shape := ⟨1, ![64]⟩
abbrev S64x64 : Shape := ⟨2, ![64, 64]⟩
abbrev S1x64 : Shape := ⟨2, ![1, 64]⟩
abbrev S1 : Shape := ⟨1, ![1]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1048576x18 : S_.BroadcastsInDim S1048576x18 (![] : Fin 0 → Fin S1048576x18.rank)
  reducesTo_S1048576x18_S_d0_1 : S1048576x18.ReducesTo [0, 1] S_
  bcast_S_S64x18 : S_.BroadcastsInDim S64x18 (![] : Fin 0 → Fin S64x18.rank)
  reducesTo_S64x18_S_d0_1 : S64x18.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1 .f32) (main_arg8 : FVec F S1024 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S64x64 .f32) (main_arg5 : FVec F S64 .f32) (main_arg6 : FVec F S1x64 .f32) (main_arg7 : FVec F S1 .f32) (main_arg8 : FVec F S1024 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S1x64 .f32 := Host.absf main_arg6
  let main_cst_10 : FVec F S_ .f32 := constant S_ .f32 0x7F800000#32
  let main_v30 : FVec F S1x64 .f32 := broadcastInDim S1x64 ![] bcast_S_S1x64 main_cst_10
  let main_v31 : IVec S1x64 1 := cmpf .olt main_v29 main_v30
  let main_c_11 : IVec S_ 1 := constantI S_ 1 1#1
  let main_v32 : IVec S_ 1 := (fun x v => Host.reduce IntOp.andi x v reducesTo_S1x64_S_d0_1 h_S_) main_v31 main_c_11
  let main_v33 : IVec S_ 1 := andi main_v28 main_v32
  fn_part2 (F := F) main_arg7 main_arg8 main_v33

def fn {F : FTy → Type} [FloatOps F] (main_arg0 : FVec F S8192x1024 .f32) (main_arg1 : FVec F S1048576x18 .f32) (main_arg2 : FVec F S64x18 .f32) (main_arg3 : FVec F S64 .f32) (main_arg4 : FVec F S64x64 .f32) (main_arg5 : FVec F S64 .f32) (main_arg6 : FVec F S1x64 .f32) (main_arg7 : FVec F S1 .f32) (main_arg8 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1048576x18 .f32 := Host.absf main_arg1
  let main_cst_0 : FVec F S_ .f32 := constant S_ .f32 0x7F800000#32
  let main_v5 : FVec F S1048576x18 .f32 := broadcastInDim S1048576x18 ![] bcast_S_S1048576x18 main_cst_0
  let main_v6 : IVec S1048576x18 1 := cmpf .olt main_v4 main_v5
  let main_c_1 : IVec S_ 1 := constantI S_ 1 1#1
  let main_v7 : IVec S_ 1 := (fun x v => Host.reduce IntOp.andi x v reducesTo_S1048576x18_S_d0_1 h_S_) main_v6 main_c_1
  let main_v8 : IVec S_ 1 := andi main_v3 main_v7
  let main_v9 : FVec F S64x18 .f32 := Host.absf main_arg2
  let main_cst_2 : FVec F S_ .f32 := constant S_ .f32 0x7F800000#32
  let main_v10 : FVec F S64x18 .f32 := broadcastInDim S64x18 ![] bcast_S_S64x18 main_cst_2
  let main_v11 : IVec S64x18 1 := cmpf .olt main_v9 main_v10
  let main_c_3 : IVec S_ 1 := constantI S_ 1 1#1
  let main_v12 : IVec S_ 1 := (fun x v => Host.reduce IntOp.andi x v reducesTo_S64x18_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_v13 main_v16
-- ==== Kernel.lean ====
abbrev S8192x1024 : Shape := ⟨2, ![8192, 1024]⟩
abbrev S1048576x18 : Shape := ⟨2, ![1048576, 18]⟩
abbrev S64x18 : Shape := ⟨2, ![64, 18]⟩
abbrev S64 : Shape := ⟨1, ![64]⟩
abbrev S64x64 : Shape := ⟨2, ![64, 64]⟩
abbrev S1x64 : Shape := ⟨2, ![1, 64]⟩
abbrev S1 : Shape := ⟨1, ![1]⟩
abbrev S1024 : Shape := ⟨1, ![1024]⟩
abbrev S18x64 : Shape := ⟨2, ![18, 64]⟩
abbrev S64x1 : Shape := ⟨2, ![64, 1]⟩
abbrev S1x1 : Shape := ⟨2, ![1, 1]⟩
abbrev S1048576x1 : Shape := ⟨2, ![1048576, 1]⟩
abbrev S4096x18 : Shape := ⟨2, ![4096, 18]⟩
abbrev S4096x1 : Shape := ⟨2, ![4096, 1]⟩
abbrev S4096x64 : Shape := ⟨2, ![4096, 64]⟩
abbrev S1024x1024 : Shape := ⟨2, ![1024, 1024]⟩
abbrev S1x1024 : Shape := ⟨2, ![1, 1024]⟩

abbrev nBuf : Space → Nat
  | .hbm => 19
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1048576x18, .f32⟩
  | .hbm, ⟨2, _⟩ => ⟨S64x18, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x64, .f32⟩
  | .hbm, ⟨7, _⟩ => ⟨S1, .f32⟩
  | .hbm, ⟨8, _⟩ => ⟨S1024, .f32⟩
  | .hbm, ⟨9, _⟩ => ⟨S18x64, .f32⟩
  | .hbm, ⟨10, _⟩ => ⟨S1x64, .f32⟩
  | .hbm, ⟨11, _⟩ => ⟨S64x64, .f32⟩
  | .hbm, ⟨12, _⟩ => ⟨S1x64, .f32⟩
  | .hbm, ⟨13, _⟩ => ⟨S64x1, .f32⟩
  | .hbm, ⟨14, _⟩ => ⟨S1x1, .f32⟩
  | .hbm, ⟨15, _⟩ => ⟨S1048576x1, .bf16⟩
  | .hbm, ⟨16, _⟩ => ⟨S1024x1024, .bf16⟩
  | .hbm, ⟨17, _⟩ => ⟨S1x1024, .f32⟩
  | .hbm, ⟨18, _⟩ => ⟨S8192x1024, .f32⟩
  | .local _ .vmem, ⟨0, _⟩ => ⟨S4096x18, .f32⟩
  | .local _ .vmem, ⟨1, _⟩ => ⟨S4096x18, .f32⟩
  | .local _ .vmem, ⟨2, _⟩ => ⟨S18x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S64x1, .f32⟩
  | .local _ .vmem, ⟨7, _⟩ => ⟨S1x1, .f32⟩
  | .local _ .vmem, ⟨8, _⟩ => ⟨S4096x1, .bf16⟩
  | .local _ .vmem, ⟨9, _⟩ => ⟨S4096x1, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x18 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S18x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x1 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  transposes_S64x18_S18x64_1_0 : S64x18.Transposes [1, 0] S18x64
  shapeCasts_S64_S1x64 : S64.ShapeCasts S1x64
  transposes_S64x64_S64x64_1_0 : S64x64.Transposes [1, 0] S64x64
  transposes_S1x64_S64x1_1_0 : S1x64.Transposes [1, 0] S64x1
  shapeCasts_S1_S1x1 : S1.ShapeCasts S1x1
  inb_S4096x18_S4096x18_0_0 : ∀ a, (![0, 0] : Fin 2 → Nat) a + S4096x18.size a ≤ S4096x18.size a
  h_S4096x18 : 0 < S4096x18.numel
  inb_S18x64_S18x64_0_0 : ∀ a, (![0, 0] : Fin 2 → Nat) a + S18x64.size a ≤ S18x64.size a
  h_S18x64 : 0 < S18x64.numel
  shapeCasts_S18x64_S18x64 : S18x64.ShapeCasts S18x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  bitsLt_bf16_f32 : FTy.bits .bf16 < FTy.bits .f32
  inb_S4096x1_S4096x1_0_0 : ∀ a, (![0, 0] : Fin 2 → Nat) a + S4096x1.size a ≤ S4096x1.size a
  h_S4096x1 : 0 < S4096x1.numel
  packedbf16_S4096x1_S4096x1_0_0 : (Rect.unit (s := S4096x1) ![0, 0] S4096x1.size inb_S4096x1_S4096x1_0_0).PackedRows (EltTy.packing .bf16)
  shapeCasts_S1048576x1_S1024x1024 : S1048576x1.ShapeCasts S1024x1024
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S4096x18_S18x64_S4096x64_1_0_0_1_n_n_wf : DotDims.WF S4096x18 S18x64 S4096x64 [1] [0] [0] [1] [] []
  dot_S4096x64_S64x64_S4096x64_1_0_0_1_n_n_wf : DotDims.WF S4096x64 S64x64 S4096x64 [1] [0] [0] [1] [] []
  dot_S4096x64_S64x1_S4096x1_1_0_0_1_n_n_wf : DotDims.WF S4096x64 S64x1 S4096x1 [1] [0] [0] [1] [] []
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x18.size a ≤ S1048576x18.size a
  hwx0_0 : ∀ i : grid0.Coords, EltTy.bits .f32 = 32 ∨ (Rect.block (s := S1048576x18) S4096x18.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S18x64.size a ≤ S18x64.size a
  hwx0_1 : ∀ i : grid0.Coords, EltTy.bits .f32 = 32 ∨ (Rect.block (s := S18x64) S18x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x1.size a ≤ S64x1.size a
  hwx0_5 : ∀ i : grid0.Coords, EltTy.bits .f32 = 32 ∨ (Rect.block (s := S64x1) S64x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x1.size a ≤ S1048576x1.size a
  hwx0_7 : ∀ i : grid0.Coords, EltTy.bits .bf16 = 32 ∨ (Rect.block (s := S1048576x1) S4096x1.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .f32 = 32 ∨ (Rect.block (s := S8192x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x1024.size a
  hwx1_3 : ∀ i : grid1.Coords, EltTy.bits .f32 = 32 ∨ (Rect.block (s := S8192x1024) S1024x1024.size (cc1_transform_3 i) (hinb1_3 i)).WholeWords (EltTy.packing .f32)

variable [Facts₀]

def dot_S4096x18_S18x64_S4096x64_1_0_0_1_n_n : DotDims S4096x18 S18x64 S4096x64 where
  lhsContracting := [1]
  rhsContracting := [0]
  lhsNonContracting := [0]
  rhsNonContracting := [1]
  lhsBatch := []
  rhsBatch := []
  wf := dot_S4096x18_S18x64_S4096x64_1_0_0_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S4096x64_S64x1_S4096x1_1_0_0_1_n_n : DotDims S4096x64 S64x1 S4096x1 where
  lhsContracting := [1]
  rhsContracting := [0]
  lhsNonContracting := [0]
  rhsNonContracting := [1]
  lhsBatch := []
  rhsBatch := []
  wf := dot_S4096x64_S64x1_S4096x1_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg1) S4096x18.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S18x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S64x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S4096x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x1024 : Shape := ⟨2, ![8192, 1024]⟩
abbrev S1048576x18 : Shape := ⟨2, ![1048576, 18]⟩
abbrev S64x18 : Shape := ⟨2, ![64, 18]⟩
abbrev S64 : Shape := ⟨1, ![64]⟩
abbrev S64x64 : Shape := ⟨2, ![64, 64]⟩
abbrev S1x64 : Shape := ⟨2, ![1, 64]⟩
abbrev S1 : Shape := ⟨1, ![1]⟩
abbrev S1024 : Shape := ⟨1, ![1024]⟩
abbrev S18x64 : Shape := ⟨2, ![18, 64]⟩
abbrev S1048576x64 : Shape := ⟨2, ![1048576, 64]⟩
abbrev S_ : Shape := ⟨0, ![]⟩
abbrev S64x1 : Shape := ⟨2, ![64, 1]⟩
abbrev S1048576x1 : Shape := ⟨2, ![1048576, 1]⟩
abbrev S1x1 : Shape := ⟨2, ![1, 1]⟩
abbrev S1024x1024 : Shape := ⟨2, ![1024, 1024]⟩
abbrev S1x1024 : Shape := ⟨2, ![1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1048576x18, .f32⟩
  | .hbm, ⟨2, _⟩ => ⟨S64x18, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x64, .f32⟩
  | .hbm, ⟨7, _⟩ => ⟨S1, .f32⟩
  | .hbm, ⟨8, _⟩ => ⟨S1024, .f32⟩
  | .hbm, ⟨9, _⟩ => ⟨S18x64, .f32⟩
  | .hbm, ⟨10, _⟩ => ⟨S1048576x64, .f32⟩
  | .hbm, ⟨11, _⟩ => ⟨S1x64, .f32⟩
  | .hbm, ⟨12, _⟩ => ⟨S1048576x64, .f32⟩
  | .hbm, ⟨13, _⟩ => ⟨S1048576x64, .f32⟩
  | .hbm, ⟨14, _⟩ => ⟨S_, .f32⟩
  | .hbm, ⟨15, _⟩ => ⟨S1048576x64, .f32⟩
  | .hbm, ⟨16, _⟩ => ⟨S1048576x64, .f32⟩
  | .hbm, ⟨17, _⟩ => ⟨S1048576x64, .f32⟩
  | .hbm, ⟨18, _⟩ => ⟨S64x64, .f32⟩
  | .hbm, ⟨19, _⟩ => ⟨S1048576x64, .f32⟩
  | .hbm, ⟨20, _⟩ => ⟨S1x64, .f32⟩
  | .hbm, ⟨21, _⟩ => ⟨S1048576x64, .f32⟩
  | .hbm, ⟨22, _⟩ => ⟨S1048576x64, .f32⟩
  | .hbm, ⟨23, _⟩ => ⟨S_, .f32⟩
  | .hbm, ⟨24, _⟩ => ⟨S1048576x64, .f32⟩
  | .hbm, ⟨25, _⟩ => ⟨S1048576x64, .f32⟩
  | .hbm, ⟨26, _⟩ => ⟨S1048576x64, .f32⟩
  | .hbm, ⟨27, _⟩ => ⟨S64x1, .f32⟩
  | .hbm, ⟨28, _⟩ => ⟨S1048576x1, .f32⟩
  | .hbm, ⟨29, _⟩ => ⟨S1x1, .f32⟩
  | .hbm, ⟨30, _⟩ => ⟨S1048576x1, .f32⟩
  | .hbm, ⟨31, _⟩ => ⟨S1048576x1, .f32⟩
  | .hbm, ⟨32, _⟩ => ⟨S1024x1024, .f32⟩
  | .hbm, ⟨33, _⟩ => ⟨S1024x1024, .f32⟩
  | .hbm, ⟨34, _⟩ => ⟨S8192x1024, .f32⟩
  | .hbm, ⟨35, _⟩ => ⟨S1x1024, .f32⟩
  | .hbm, ⟨36, _⟩ => ⟨S8192x1024, .f32⟩
  | .hbm, ⟨37, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]

class Facts₀ : Prop where
  transposes_S64x18_S18x64_1_0 : S64x18.Transposes [1, 0] S18x64
  bcast_S64_S1x64_1 : S64.BroadcastsInDim S1x64 (![1] : Fin 1 → Fin S1x64.rank)
  bcast_S1x64_S1048576x64_0_1 : S1x64.BroadcastsInDim S1048576x64 (![0, 1] : Fin 2 → Fin S1048576x64.rank)
  bcast_S_S1048576x64 : S_.BroadcastsInDim S1048576x64 (![] : Fin 0 → Fin S1048576x64.rank)
  transposes_S64x64_S64x64_1_0 : S64x64.Transposes [1, 0] S64x64
  transposes_S1x64_S64x1_1_0 : S1x64.Transposes [1, 0] S64x1
  bcast_S1_S1x1_1 : S1.BroadcastsInDim S1x1 (![1] : Fin 1 → Fin S1x1.rank)
  bcast_S1x1_S1048576x1_0_1 : S1x1.BroadcastsInDim S1048576x1 (![0, 1] : Fin 2 → Fin S1048576x1.rank)
  shapeCasts_S1048576x1_S1024x1024 : S1048576x1.ShapeCasts S1024x1024
  transposes_S1024x1024_S1024x1024_1_0 : S1024x1024.Transposes [1, 0] S1024x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  dot_S1048576x18_S18x64_S1048576x64_1_0_0_1_n_n_wf : DotDims.WF S1048576x18 S18x64 S1048576x64 [1] [0] [0] [1] [] []
  dot_S1048576x64_S64x64_S1048576x64_1_0_0_1_n_n_wf : DotDims.WF S1048576x64 S64x64 S1048576x64 [1] [0] [0] [1] [] []
  dot_S1048576x64_S64x1_S1048576x1_1_0_0_1_n_n_wf : DotDims.WF S1048576x64 S64x1 S1048576x1 [1] [0] [0] [1] [] []
  dot_S8192x1024_S1024x1024_S8192x1024_1_0_0_1_n_n_wf : DotDims.WF S8192x1024 S1024x1024 S8192x1024 [1] [0] [0] [1] [] []

variable [Facts₀]

def dot_S1048576x18_S18x64_S1048576x64_1_0_0_1_n_n : DotDims S1048576x18 S18x64 S1048576x64 where
  lhsContracting := [1]
  rhsContracting := [0]
  lhsNonContracting := [0]
  rhsNonContracting := [1]
  lhsBatch := []
  rhsBatch := []
  wf := dot_S1048576x18_S18x64_S1048576x64_1_0_0_1_n_n_wf
def dot_S1048576x64_S64x64_S1048576x64_1_0_0_1_n_n : DotDims S1048576x64 S64x64 S1048576x64 where
  lhsContracting := [1]
  rhsContracting := [0]
  lhsNonContracting := [0]
  rhsNonContracting := [1]
  lhsBatch := []
  rhsBatch := []
  wf := dot_S1048576x64_S64x64_S1048576x64_1_0_0_1_n_n_wf
def dot_S1048576x64_S64x1_S1048576x1_1_0_0_1_n_n : DotDims S1048576x64 S64x1 S1048576x1 where
  lhsContracting := [1]
  rhsContracting := [0]
  lhsNonContracting := [0]
  rhsNonContracting := [1]
  lhsBatch := []
  rhsBatch := []
  wf := dot_S1048576x64_S64x1_S1048576x1_1_0_0_1_n_n_wf
def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf

class Facts : Prop extends Facts₀ where

variable [Facts]
-- ==== Proof.LibMatDot.lean ====
/-
  A plain matrix product read at an index.

  The dimension numbers of `[a, K] × [K, b] → [a, b]` — contract the left operand's axis 1 with the right operand's axis 0, no
  batch axis — are those of the product `l · r`. On the extended reals the product, read at `(p, q)`, is the sum over `k` of
  `l (p, k) · r (k, q)`: row `p` of the left operand against column `q` of the right one.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : ℕ}

/-- The dimension numbers of the product of rows with columns `[a, K] × [K, b] → [a, b]`, over any witness of their
    well-formedness. -/
abbrev matDot (wf : DotDims.WF ⟨2, ![a, K]⟩ ⟨2, ![K, b]⟩ ⟨2, ![a, b]⟩ [1] [0] [0] [1] [] []) :
    DotDims ⟨2, ![a, K]⟩ ⟨2, ![K, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, K]⟩ ⟨2, ![K, b]⟩ ⟨2, ![a, b]⟩ [1] [0] [0] [1] [] [])

/-- Off the contracted axis the left operand is read at the result's row, -/
theorem matDot_lhs_row (i : (⟨2, ![a, b]⟩ : Shape).Idx) (κ : (matDot wf).contr.Idx) :
    ((matDot wf).lhsIdx i κ 0).val = (i 0).val := by
  unfold DotDims.lhsIdx
  rw [dif_neg (show ¬(0 : Fin (Shape.rank ⟨2, ![a, K]⟩)) ∈ (matDot wf).lhsBatch from List.not_mem_nil),
    dif_pos (show (0 : Fin (Shape.rank ⟨2, ![a, K]⟩)) ∈ (matDot wf).lhsNonContracting from List.mem_singleton.mpr rfl)]
  rfl

/-- and the right operand at the result's column. -/
theorem matDot_rhs_col (i : (⟨2, ![a, b]⟩ : Shape).Idx) (κ : (matDot wf).contr.Idx) :
    ((matDot wf).rhsIdx i κ 1).val = (i 1).val := by
  unfold DotDims.rhsIdx
  rw [dif_neg (show ¬(1 : Fin (Shape.rank ⟨2, ![K, b]⟩)) ∈ (matDot wf).rhsBatch from List.not_mem_nil),
    dif_pos (show (1 : Fin (Shape.rank ⟨2, ![K, b]⟩)) ∈ (matDot wf).rhsNonContracting from List.mem_singleton.mpr rfl)]
  rfl

/-- At result index `(p, q)` and contraction position `k` the left operand is read at `(p, k)`. -/
theorem matDot_lhsIdx (p : Fin a) (q : Fin b) (k : Fin K) :
    (matDot wf).lhsIdx (ix2 p q) ((contrEquiv1 (matDot wf) K rfl rfl).symm k) = ix2 p k :=
  funext fun ax => Fin.ext (by
    match ax with
    | ⟨0, _⟩ => exact matDot_lhs_row wf _ _
    | ⟨1, _⟩ =>
      exact ((matDot wf).lhsIdx_val_of_single rfl _ _).trans (contrEquiv1_symm_val (matDot wf) K rfl rfl k))

/-- … and the right operand at `(k, q)`. -/
theorem matDot_rhsIdx (p : Fin a) (q : Fin b) (k : Fin K) :
    (matDot wf).rhsIdx (ix2 p q) ((contrEquiv1 (matDot wf) K rfl rfl).symm k) = ix2 k q :=
  funext fun ax => Fin.ext (by
    match ax with
    | ⟨0, _⟩ =>
      exact ((matDot wf).rhsIdx_val_of_single rfl _ _).trans (contrEquiv1_symm_val (matDot wf) K rfl rfl k)
    | ⟨1, _⟩ => exact matDot_rhs_col wf _ _)

/-- The contraction of a product of rows with columns at `(p, q)`, re-indexed by the contracted coordinate. -/
theorem matDot_sum {φ₁ φ₂ : FTy} (l : FVec Ideal ⟨2, ![a, K]⟩ φ₁) (r : FVec Ideal ⟨2, ![K, b]⟩ φ₂) (p : Fin a) (q : Fin b) :
    (∑ k : (matDot wf).contr.Idx, l ((matDot wf).lhsIdx (ix2 p q) k) * r ((matDot wf).rhsIdx (ix2 p q) k))
      = ∑ k : Fin K, l (ix2 p k) * r (ix2 k q) := by
  rw [← Equiv.sum_comp (contrEquiv1 (matDot wf) K rfl rfl).symm]
  refine Finset.sum_congr rfl fun k _ => ?_
  rw [matDot_lhsIdx, matDot_rhsIdx]

/-- A `tpu.matmul` of rows with columns at `(p, q)`: the accumulator's entry plus the row-by-column sum. -/
theorem matmul_plain_apply {φ₁ φ₂ : FTy} (prec : Option ContractPrecision) (l : FVec Ideal ⟨2, ![a, K]⟩ φ₁)
    (r : FVec Ideal ⟨2, ![K, b]⟩ φ₂) (acc : FVec Ideal ⟨2, ![a, b]⟩ .f32) (p : Fin a) (q : Fin b) :
    FloatOps.matmul (matDot wf) prec l r acc (ix2 p q) = acc (ix2 p q) + ∑ k : Fin K, l (ix2 p k) * r (ix2 k q) := by
  rw [Ideal.matmul_apply, matDot_sum]

/-- Into the zero accumulator: the row-by-column sum alone. -/
theorem matmul_plain_zero_apply {φ₁ φ₂ : FTy} (prec : Option ContractPrecision) (l : FVec Ideal ⟨2, ![a, K]⟩ φ₁)
    (r : FVec Ideal ⟨2, ![K, b]⟩ φ₂) (p : Fin a) (q : Fin b) :
    FloatOps.matmul (matDot wf) prec l r (constant ⟨2, ![a, b]⟩ .f32 0x00000000#32) (ix2 p q)
      = ∑ k : Fin K, l (ix2 p k) * r (ix2 k q) := by
  rw [Ideal.matmul_constant_zero_apply, matDot_sum]

/-- The host's `dot_general` of rows with columns at `(p, q)`: the same sum. -/
theorem dotGeneral_plain_apply {φ₁ φ₂ : FTy} (prec : Option ContractPrecision) (sched : HostSchedule)
    (l : FVec Ideal ⟨2, ![a, K]⟩ φ₁) (r : FVec Ideal ⟨2, ![K, b]⟩ φ₂) (p : Fin a) (q : Fin b) :
    FloatOps.dotGeneral (matDot wf) prec sched l r (ix2 p q) = ∑ k : Fin K, l (ix2 p k) * r (ix2 k q) := by
  rw [Ideal.dotGeneral_apply, matDot_sum]

end Cert.Lib

end
-- ==== Proof.Spec.lean ====
/-
  The two-stage computation, as plain functions on the extended reals.

  Stage one is a three-layer perceptron applied to each row `e` of an embedding table (18 features): two sine layers
  `sin (30 · (a · wᵀ + b))` of width 64, then one affine read-out to a single number. Its value on row `n` is the entry
  `n` of a generated weight table. Stage two reads that table as a `1024 × 1024` matrix `W` (entry `(q, k)` is row
  `q · 1024 + k` of the table) and forms `x · Wᵀ + bias`.

  Everything is stated over functions of `Fin` indices, so that the same definitions serve one block of rows and the
  whole table, and either layout of a weight matrix.
-/
import Idealize.ShloMosaic.PureOps.Ideal

noncomputable section

namespace Cert.Hyper

open Idealize.ShloMosaic
open scoped BigOperators

/-- The frequency factor `30` in front of each sine, as the float literal both programs carry. -/
def freq : EReal := Ideal.ofBits .f32 0x41F00000#32

/-- One sine layer: output `j` is `sin (30 · (∑ t, a t · w j t + b j))`. -/
def sinLayer {n k : ℕ} (w : Fin k → Fin n → EReal) (b : Fin k → EReal) (a : Fin n → EReal) (j : Fin k) : EReal :=
  Ideal.sin (freq * ((∑ t : Fin n, a t * w j t) + b j))

/-- The affine read-out `∑ t, a t · w t + b`. -/
def readOut {n : ℕ} (w : Fin n → EReal) (b : EReal) (a : Fin n → EReal) : EReal :=
  (∑ t : Fin n, a t * w t) + b

/-- The generated weight of one embedding row `e`: two sine layers and the read-out. -/
def weight (w1 : Fin 64 → Fin 18 → EReal) (b1 : Fin 64 → EReal) (w2 : Fin 64 → Fin 64 → EReal) (b2 : Fin 64 → EReal)
    (w3 : Fin 64 → EReal) (b3 : EReal) (e : Fin 18 → EReal) : EReal :=
  readOut w3 b3 (sinLayer w2 b2 (sinLayer w1 b1 e))

/-- Row `q · 1024 + k` of a table of `1024 · 1024` rows. -/
def flat (q k : Fin 1024) : Fin 1048576 := ⟨q.val * 1024 + k.val, by have := q.isLt; have := k.isLt; omega⟩

/-- Stage two at `(p, q)`: row `p` of `x` against row `q` of the weight matrix, plus the bias of column `q`. -/
def product (x : Fin 8192 → Fin 1024 → EReal) (W : Fin 1024 → Fin 1024 → EReal) (bias : Fin 1024 → EReal)
    (p : Fin 8192) (q : Fin 1024) : EReal :=
  (∑ k : Fin 1024, x p k * W q k) + bias q

/-- The whole computation at `(p, q)`, from the embedding table `emb` (row, feature), the perceptron's parameters and
    the second stage's `x` and `bias`. -/
def result (x : Fin 8192 → Fin 1024 → EReal) (emb : Fin 1048576 → Fin 18 → EReal)
    (w1 : Fin 64 → Fin 18 → EReal) (b1 : Fin 64 → EReal) (w2 : Fin 64 → Fin 64 → EReal) (b2 : Fin 64 → EReal)
    (w3 : Fin 64 → EReal) (b3 : EReal) (bias : Fin 1024 → EReal) (p : Fin 8192) (q : Fin 1024) : EReal :=
  product x (fun q k => weight w1 b1 w2 b2 w3 b3 (emb (flat q k))) bias p q

end Cert.Hyper

end
-- ==== Proof.Stage1Body.lean ====
/-
  The first kernel's body, read at an index.

  The body loads a block of `4096` rows `e` of the embedding table and the perceptron's parameters — each weight matrix
  already transposed, so that a layer is a plain product of rows with columns, and each bias as one row — and stores,
  for each row `r` of the block, the perceptron's value on that row:
  `sin (30 · (e · w1 + b1))`, then `sin (30 · (h · w2 + b2))`, then `h · w3 + b3`.
  Each product starts from the zero accumulator, each bias row is repeated down the rows, and the final narrowing to a
  shorter float format is the identity on the extended reals.
-/
import proofs.«131566_j13529146982441_2_alg».proof.Proof.Gen.KernelIdeal.Skeleton
import proofs.«131566_j13529146982441_2_alg».proof.Proof.LibMatDot
import proofs.«131566_j13529146982441_2_alg».proof.Proof.Spec
import Idealize.ShloMosaic.Lib.ValueIdx
import Idealize.ShloMosaic.Lib.ValueLayout
import Idealize.ShloMosaic.Lib.Pipeline.Value

noncomputable section

namespace Cert.KernelIdeal.Stage1

open Cert.KernelIdeal Cert.KernelIdeal.Gen
open Idealize.ShloMosaic Idealize.ShloMosaic.ValueIdx
open scoped BigOperators

/-- One sine layer over a block of rows, at `(r, j)`: the rows `a` against the columns of `w`, plus the bias row's entry `j`,
    times thirty, under the sine — the specification's layer with `w` read transposed. -/
theorem layer_apply {n : ℕ} (wf : DotDims.WF ⟨2, ![4096, n]⟩ ⟨2, ![n, 64]⟩ ⟨2, ![4096, 64]⟩ [1] [0] [0] [1] [] [])
    (prec : Option ContractPrecision) (a : FVec Ideal ⟨2, ![4096, n]⟩ .f32) (w : FVec Ideal ⟨2, ![n, 64]⟩ .f32)
    (b : FVec Ideal ⟨2, ![1, 64]⟩ .f32) (hb : (⟨2, ![1, 64]⟩ : Shape).Broadcasts ⟨2, ![4096, 64]⟩) (r : Fin 4096) (j : Fin 64) :
    sin (mulf (broadcast ⟨2, ![4096, 64]⟩ (Scalar.ofBits (F := Ideal) .f32 0x41F00000#32))
        (addf (FloatOps.matmul (Cert.Lib.matDot wf) prec a w (constant ⟨2, ![4096, 64]⟩ .f32 0x00000000#32))
          (broadcastTo ⟨2, ![4096, 64]⟩ b hb))) (ix2 r j)
      = Cert.Hyper.sinLayer (fun j t => w (ix2 t j)) (fun j => b (ix2 (0 : Fin 1) j)) (fun t => a (ix2 r t)) j := by
  show Ideal.sin (Ideal.ofBits .f32 0x41F00000#32
      * (FloatOps.matmul (Cert.Lib.matDot wf) prec a w (constant ⟨2, ![4096, 64]⟩ .f32 0x00000000#32) (ix2 r j)
        + broadcastTo ⟨2, ![4096, 64]⟩ b hb (ix2 r j))) = _
  rw [Cert.Lib.matmul_plain_zero_apply, broadcastTo_1b_ab_apply]
  rfl

/-- The stored value at row `r` of the block: the perceptron's value on that row of the embedding block. -/
theorem body_apply (e : Vec Ideal S4096x18 .f32) (w1 : Vec Ideal S18x64 .f32) (b1 : Vec Ideal S1x64 .f32)
    (w2 : Vec Ideal S64x64 .f32) (b2 : Vec Ideal S1x64 .f32) (w3 : Vec Ideal S64x1 .f32) (b3 : Vec Ideal S1x1 .f32)
    (r : Fin 4096) (u : Fin 1) :
    k0_pay1 (F := Ideal) e w1 b1 w2 b2 w3 b3 (ix2 r u)
      = Cert.Hyper.weight (fun j t => w1 (ix2 t j)) (fun j => b1 (ix2 (0 : Fin 1) j)) (fun k j => w2 (ix2 j k))
          (fun k => b2 (ix2 (0 : Fin 1) k)) (fun k => w3 (ix2 k (0 : Fin 1))) (b3 (ix2 (0 : Fin 1) (0 : Fin 1)))
          (fun t => e (ix2 r t)) := by
  have hu : u = 0 := Subsingleton.elim _ _
  subst hu
  unfold k0_pay1
  simp only [shapeCast_self]
  -- the narrowing is the identity; the read-out is a product plus the bias entry
  refine (addf_apply _ _ (ix2 r (0 : Fin 1))).trans ?_
  unfold Cert.Hyper.weight Cert.Hyper.readOut
  refine congrArg₂ (· + ·) ?_ ?_
  · refine (Cert.Lib.matmul_plain_zero_apply dot_S4096x64_S64x1_S4096x1_1_0_0_1_n_n_wf none _ w3 r (0 : Fin 1)).trans ?_
    refine Finset.sum_congr rfl fun k _ => ?_
    refine congrArg (· * w3 (ix2 k (0 : Fin 1))) ?_
    -- the second layer at (r, k), over the first layer's row
    refine (layer_apply dot_S4096x64_S64x64_S4096x64_1_0_0_1_n_n_wf (some .fp32) _ w2 b2 broadcasts_S1x64_S4096x64 r k).trans ?_
    refine congrArg (fun a => Cert.Hyper.sinLayer (fun k j => w2 (ix2 j k)) (fun k => b2 (ix2 (0 : Fin 1) k)) a k)
      (funext fun j => ?_)
    exact layer_apply dot_S4096x18_S18x64_S4096x64_1_0_0_1_n_n_wf (some .fp32) e w1 b1 broadcasts_S1x64_S4096x64 r j
  · exact broadcastTo_1b_ab_apply b3 broadcasts_S1x1_S4096x1 r (0 : Fin 1)

end Cert.KernelIdeal.Stage1

end
-- ==== Proof.Stage1Array.lean ====
/-
  The first region's result array, as one function of the arrays the region finds.

  The region runs the body at 256 grid points. Point `t` reads rows `4096·t … 4096·t + 4095` of the embedding table and the
  whole of each of the perceptron's six parameter arrays, and writes back rows `4096·t … 4096·t + 4095` of the result column.
  So what point `t` writes back is block `t` of ONE function of the arrays: at row `n`, the perceptron's value on row `n` of
  the embedding table. The 256 blocks tile the result's `1048576` rows (row `n` lies in block `n / 4096`), so the array
  ends holding that function everywhere.
-/
import proofs.«131566_j13529146982441_2_alg».proof.Proof.Gen.KernelIdeal.Frame
import proofs.«131566_j13529146982441_2_alg».proof.Proof.Stage1Body
import proofs.«131566_j13529146982441_2_alg».proof.Proof.Spec
import Idealize.ShloMosaic.Lib.Pipeline.Value
import Idealize.ShloMosaic.Lib.ValueIdx

set_option maxRecDepth 16384

noncomputable section

namespace Cert.KernelIdeal.Stage1

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

/-- Every load and the store of the body start at the origin of their buffer. -/
theorem origin : (![0, 0] : Fin 2 → Nat) = fun _ => 0 := funext fun a => by fin_cases a <;> rfl

/-- The printed index maps over the grid: the embedding table's and the result's blocks move down one block of rows per
    point; each parameter array stays at its one block. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Row `r` of block `t`, as a row of the whole table. -/
def row (t : Fin cfg0.N) (r : Fin 4096) : Fin 1048576 :=
  ⟨t.val * 4096 + r.val, by have h : t.val < 256 := lt_of_lt_of_eq t.isLt N_0; have := r.isLt; omega⟩

/-- The result column as one function of the arrays the region finds: the perceptron's value on each row of the table,
    its weight matrices read transposed and its biases as rows, as the region is handed them. -/
def whole (c : Dev nD) : S1048576x1.Idx → EReal := fun i =>
  Cert.Hyper.weight (fun j t => V c main_v0 (ix2 t j)) (fun j => V c main_v1 (ix2 (0 : Fin 1) j))
    (fun k j => V c main_v2 (ix2 j k)) (fun k => V c main_v3 (ix2 (0 : Fin 1) k))
    (fun k => V c main_v4 (ix2 k (0 : Fin 1))) (V c main_v5 (ix2 (0 : Fin 1) (0 : Fin 1)))
    (fun t => V c main_arg1 (ix2 (i 0) t))

/-- The embedding block at point `t` is rows `4096·t …` of the table. -/
theorem read_e (c : Dev nD) (t : Fin cfg0.N) (r : Fin 4096) (f : Fin 18) :
    iblk0 V c 0 t (ix2 r f) = V c main_arg1 (ix2 (row t r) f) := by
  obtain ⟨e0, e1, -⟩ := index_facts t
  show V c main_arg1 (((cfg0.win 0).blk t).view.emb (ix2 r f)) = V c main_arg1 (ix2 (row t r) f)
  refine congrArg _ (funext fun a => Fin.ext ?_)
  match a with
  | ⟨0, _⟩ => show win0_0.index t (0 : Fin 2) * 4096 + 1 * r.val = t.val * 4096 + r.val; rw [e0]; omega
  | ⟨1, _⟩ => show win0_0.index t (1 : Fin 2) * 18 + 1 * f.val = f.val; rw [e1]; omega

/-- The first weight matrix's block at every point is the whole matrix. -/
theorem read_w1 (c : Dev nD) (t : Fin cfg0.N) (f : Fin 18) (j : Fin 64) :
    iblk0 V c 1 t (ix2 f j) = V c main_v0 (ix2 f j) := by
  obtain ⟨-, -, e0, e1, -⟩ := index_facts t
  show V c main_v0 (((cfg0.win 1).blk t).view.emb (ix2 f j)) = V c main_v0 (ix2 f j)
  refine congrArg _ (funext fun a => Fin.ext ?_)
  match a with
  | ⟨0, _⟩ => show win0_1.index t (0 : Fin 2) * 18 + 1 * f.val = f.val; rw [e0]; omega
  | ⟨1, _⟩ => show win0_1.index t (1 : Fin 2) * 64 + 1 * j.val = j.val; rw [e1]; omega

/-- The first bias row's block at every point is the whole row. -/
theorem read_b1 (c : Dev nD) (t : Fin cfg0.N) (j : Fin 64) :
    iblk0 V c 2 t (ix2 (0 : Fin 1) j) = V c main_v1 (ix2 (0 : Fin 1) j) := by
  obtain ⟨-, -, -, -, e0, e1, -⟩ := index_facts t
  show V c main_v1 (((cfg0.win 2).blk t).view.emb (ix2 (0 : Fin 1) j)) = V c main_v1 (ix2 (0 : Fin 1) j)
  refine congrArg _ (funext fun a => Fin.ext ?_)
  match a with
  | ⟨0, _⟩ => show win0_2.index t (0 : Fin 2) * 1 + 1 * 0 = 0; rw [e0]
  | ⟨1, _⟩ => show win0_2.index t (1 : Fin 2) * 64 + 1 * j.val = j.val; rw [e1]; omega

/-- The second weight matrix's block at every point is the whole matrix. -/
theorem read_w2 (c : Dev nD) (t : Fin cfg0.N) (j k : Fin 64) :
    iblk0 V c 3 t (ix2 j k) = V c main_v2 (ix2 j k) := by
  obtain ⟨-, -, -, -, -, -, e0, e1, -⟩ := index_facts t
  show V c main_v2 (((cfg0.win 3).blk t).view.emb (ix2 j k)) = V c main_v2 (ix2 j k)
  refine congrArg _ (funext fun a => Fin.ext ?_)
  match a with
  | ⟨0, _⟩ => show win0_3.index t (0 : Fin 2) * 64 + 1 * j.val = j.val; rw [e0]; omega
  | ⟨1, _⟩ => show win0_3.index t (1 : Fin 2) * 64 + 1 * k.val = k.val; rw [e1]; omega

/-- The second bias row's block at every point is the whole row. -/
theorem read_b2 (c : Dev nD) (t : Fin cfg0.N) (k : Fin 64) :
    iblk0 V c 4 t (ix2 (0 : Fin 1) k) = V c main_v3 (ix2 (0 : Fin 1) k) := by
  obtain ⟨-, -, -, -, -, -, -, -, e0, e1, -⟩ := index_facts t
  show V c main_v3 (((cfg0.win 4).blk t).view.emb (ix2 (0 : Fin 1) k)) = V c main_v3 (ix2 (0 : Fin 1) k)
  refine congrArg _ (funext fun a => Fin.ext ?_)
  match a with
  | ⟨0, _⟩ => show win0_4.index t (0 : Fin 2) * 1 + 1 * 0 = 0; rw [e0]
  | ⟨1, _⟩ => show win0_4.index t (1 : Fin 2) * 64 + 1 * k.val = k.val; rw [e1]; omega

/-- The read-out column's block at every point is the whole column. -/
theorem read_w3 (c : Dev nD) (t : Fin cfg0.N) (k : Fin 64) :
    iblk0 V c 5 t (ix2 k (0 : Fin 1)) = V c main_v4 (ix2 k (0 : Fin 1)) := by
  obtain ⟨-, -, -, -, -, -, -, -, -, -, e0, e1, -⟩ := index_facts t
  show V c main_v4 (((cfg0.win 5).blk t).view.emb (ix2 k (0 : Fin 1))) = V c main_v4 (ix2 k (0 : Fin 1))
  refine congrArg _ (funext fun a => Fin.ext ?_)
  match a with
  | ⟨0, _⟩ => show win0_5.index t (0 : Fin 2) * 64 + 1 * k.val = k.val; rw [e0]; omega
  | ⟨1, _⟩ => show win0_5.index t (1 : Fin 2) * 1 + 1 * 0 = 0; rw [e1]

/-- The read-out bias's block at every point is its one entry. -/
theorem read_b3 (c : Dev nD) (t : Fin cfg0.N) :
    iblk0 V c 6 t (ix2 (0 : Fin 1) (0 : Fin 1)) = V c main_v5 (ix2 (0 : Fin 1) (0 : Fin 1)) := by
  obtain ⟨-, -, -, -, -, -, -, -, -, -, -, -, e0, e1, -⟩ := index_facts t
  show V c main_v5 (((cfg0.win 6).blk t).view.emb (ix2 (0 : Fin 1) (0 : Fin 1))) = V c main_v5 (ix2 (0 : Fin 1) (0 : Fin 1))
  refine congrArg _ (funext fun a => Fin.ext ?_)
  match a with
  | ⟨0, _⟩ => show win0_6.index t (0 : Fin 2) * 1 + 1 * 0 = 0; rw [e0]
  | ⟨1, _⟩ => show win0_6.index t (1 : Fin 2) * 1 + 1 * 0 = 0; rw [e1]

/-- Entry `(r, u)` of the result's block `t` is entry `(4096·t + r, u)` of the array. -/
theorem emb_out (t : Fin cfg0.N) (r : Fin 4096) (u : Fin 1) :
    ((cfg0.win 7).blk t).view.emb (ix2 r u) = ix2 (row t r) u := by
  obtain ⟨-, -, -, -, -, -, -, -, -, -, -, -, -, -, e0, e1⟩ := index_facts t
  have hu : u.val = 0 := by omega
  refine funext fun a => Fin.ext ?_
  match a with
  | ⟨0, _⟩ => show win0_7.index t (0 : Fin 2) * 4096 + 1 * r.val = t.val * 4096 + r.val; rw [e0]; omega
  | ⟨1, _⟩ => show win0_7.index t (1 : Fin 2) * 1 + 1 * u.val = u.val; rw [e1]; omega

/-- What point `t` writes back is block `t` of `whole`. -/
theorem flushed_eq (c : Dev nD) (t : Fin cfg0.N) :
    (dat0 V c).flushed 7 t = ((cfg0.win 7).blk t).view.read (Elt Ideal) (whole V c) := by
  show (cfg0.win 7).cut (grid0.coords t) ((dat0 V c).after 7 t) = _
  rw [after0_7]
  unfold out0_7
  rw [View.canon_unit_zero origin]
  simp only [View.ld_unit_zero (S := S4096x18) origin, View.ld_unit_zero (S := S18x64) origin,
    View.ld_unit_zero (S := S1x64) origin, View.ld_unit_zero (S := S64x64) origin,
    View.ld_unit_zero (S := S64x1) origin, View.ld_unit_zero (S := S1x1) origin]
  funext y
  obtain ⟨r, u, rfl⟩ : ∃ (r : Fin 4096) (u : Fin 1), y = ix2 r u := ⟨y 0, y 1, eq_ix2 y⟩
  show k0_pay1 (F := Ideal) (iblk0 V c 0 t) (iblk0 V c 1 t) (iblk0 V c 2 t) (iblk0 V c 3 t) (iblk0 V c 4 t)
      (iblk0 V c 5 t) (iblk0 V c 6 t) (ix2 r u)
    = whole V c (((cfg0.win 7).blk t).view.emb (ix2 r u))
  rw [emb_out t r u]
  refine (body_apply (iblk0 V c 0 t) (iblk0 V c 1 t) (iblk0 V c 2 t) (iblk0 V c 3 t) (iblk0 V c 4 t)
    (iblk0 V c 5 t) (iblk0 V c 6 t) r u).trans ?_
  -- each block read where the whole arrays are read
  have h0 : (fun f : Fin 18 => iblk0 V c 0 t (ix2 r f)) = fun f => V c main_arg1 (ix2 (row t r) f) :=
    funext fun f => read_e V c t r f
  have h1 : (fun (j : Fin 64) (f : Fin 18) => iblk0 V c 1 t (ix2 f j)) = fun j f => V c main_v0 (ix2 f j) :=
    funext fun j => funext fun f => read_w1 V c t f j
  have h2 : (fun j : Fin 64 => iblk0 V c 2 t (ix2 (0 : Fin 1) j)) = fun j => V c main_v1 (ix2 (0 : Fin 1) j) :=
    funext fun j => read_b1 V c t j
  have h3 : (fun (k j : Fin 64) => iblk0 V c 3 t (ix2 j k)) = fun k j => V c main_v2 (ix2 j k) :=
    funext fun k => funext fun j => read_w2 V c t j k
  have h4 : (fun k : Fin 64 => iblk0 V c 4 t (ix2 (0 : Fin 1) k)) = fun k => V c main_v3 (ix2 (0 : Fin 1) k) :=
    funext fun k => read_b2 V c t k
  have h5 : (fun k : Fin 64 => iblk0 V c 5 t (ix2 k (0 : Fin 1))) = fun k => V c main_v4 (ix2 k (0 : Fin 1)) :=
    funext fun k => read_w3 V c t k
  rw [h0, h1, h2, h3, h4, h5, read_b3 V c t]
  rfl

/-- An index of the array is in point `t`'s block iff each coordinate is in the block's range on its axis. -/
theorem mem_block (t : Fin cfg0.N) (i : S1048576x1.Idx) :
    i ∈ ((cfg0.win 7).blk t).view.set
      ↔ ∀ a : Fin 2, win0_7.index t a * S4096x1.size a ≤ (i a).val ∧ (i a).val < win0_7.index t a * S4096x1.size a + S4096x1.size a := by
  show i ∈ ((View.whole main_v6).slice (win0_7.rect t)).set ↔ _
  rw [View.set_slice_whole, Rect.mem_set_unit]
  exact Iff.rfl

/-- Every index of the result lies in some point's block: row `n` in block `n / 4096`. -/
theorem covered (i : S1048576x1.Idx) :
    ∃ t : Fin cfg0.N, (cfg0.win 7).flush t = true ∧ i ∈ ((cfg0.win 7).blk t).view.set := by
  have hi0 : (i 0).val < 1048576 := (i 0).isLt
  have hi1 : (i 1).val < 1 := (i 1).isLt
  have hN : (i 0).val / 4096 < cfg0.N := lt_of_lt_of_eq (by omega : (i 0).val / 4096 < 256) N_0.symm
  refine ⟨⟨(i 0).val / 4096, hN⟩, flush0_7 _, ?_⟩
  obtain ⟨-, -, -, -, -, -, -, -, -, -, -, -, -, -, e0, e1⟩ := index_facts ⟨(i 0).val / 4096, hN⟩
  rw [mem_block]
  intro a
  match a with
  | ⟨0, _⟩ =>
    show win0_7.index ⟨(i 0).val / 4096, hN⟩ (0 : Fin 2) * 4096 ≤ (i 0).val
      ∧ (i 0).val < win0_7.index ⟨(i 0).val / 4096, hN⟩ (0 : Fin 2) * 4096 + 4096
    rw [e0]; show (i 0).val / 4096 * 4096 ≤ (i 0).val ∧ (i 0).val < (i 0).val / 4096 * 4096 + 4096; omega
  | ⟨1, _⟩ =>
    show win0_7.index ⟨(i 0).val / 4096, hN⟩ (1 : Fin 2) * 1 ≤ (i 1).val
      ∧ (i 1).val < win0_7.index ⟨(i 0).val / 4096, hN⟩ (1 : Fin 2) * 1 + 1
    rw [e1]; omega

/-- The result column after the region: the perceptron's value on every row of the embedding table. -/
theorem array_eq (c : Dev nD) : (dat0 V c).arrAt 7 cfg0.N = whole V c :=
  (dat0 V c).arrAt_eq_of_cover 7 (whole V c) (fun t _ => flushed_eq V c t) (covered)

end Cert.KernelIdeal.Stage1

end
-- ==== Proof.LibRowsDot.lean ====
/-
  A matrix product against a transposed right operand, read at an index.

  The dimension numbers of `[a, K] × [b, K] → [a, b]` — contract the left operand's axis 1 with the right operand's axis 1, no
  batch axis — are those of `q · kᵀ` written without a transpose. On the extended reals the product, read at `(p, q)`, is the
  sum over `k` of `l (p, k) · r (q, k)`: row `p` of the left operand against row `q` of the right one.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : ℕ}

/-- The dimension numbers of the product of rows with rows `[a, K] × [b, K] → [a, b]`, over any witness of their
    well-formedness. -/
abbrev rowsDot (wf : DotDims.WF ⟨2, ![a, K]⟩ ⟨2, ![b, K]⟩ ⟨2, ![a, b]⟩ [1] [1] [0] [0] [] []) :
    DotDims ⟨2, ![a, K]⟩ ⟨2, ![b, K]⟩ ⟨2, ![a, b]⟩ where
  lhsContracting := [1]
  rhsContracting := [1]
  lhsNonContracting := [0]
  rhsNonContracting := [0]
  lhsBatch := []
  rhsBatch := []
  wf := wf

variable (wf : DotDims.WF ⟨2, ![a, K]⟩ ⟨2, ![b, K]⟩ ⟨2, ![a, b]⟩ [1] [1] [0] [0] [] [])

/-- Off the contracted axis the left operand is read at the result's row, -/
theorem rowsDot_lhs_row (i : (⟨2, ![a, b]⟩ : Shape).Idx) (κ : (rowsDot wf).contr.Idx) :
    ((rowsDot wf).lhsIdx i κ 0).val = (i 0).val := by
  unfold DotDims.lhsIdx
  rw [dif_neg (show ¬(0 : Fin (Shape.rank ⟨2, ![a, K]⟩)) ∈ (rowsDot wf).lhsBatch from List.not_mem_nil),
    dif_pos (show (0 : Fin (Shape.rank ⟨2, ![a, K]⟩)) ∈ (rowsDot wf).lhsNonContracting from List.mem_singleton.mpr rfl)]
  rfl

/-- and the right operand at the row the result's column names. -/
theorem rowsDot_rhs_row (i : (⟨2, ![a, b]⟩ : Shape).Idx) (κ : (rowsDot wf).contr.Idx) :
    ((rowsDot wf).rhsIdx i κ 0).val = (i 1).val := by
  unfold DotDims.rhsIdx
  rw [dif_neg (show ¬(0 : Fin (Shape.rank ⟨2, ![b, K]⟩)) ∈ (rowsDot wf).rhsBatch from List.not_mem_nil),
    dif_pos (show (0 : Fin (Shape.rank ⟨2, ![b, K]⟩)) ∈ (rowsDot wf).rhsNonContracting from List.mem_singleton.mpr rfl)]
  rfl

/-- At result index `(p, q)` and contraction position `k` the left operand is read at `(p, k)`. -/
theorem rowsDot_lhsIdx (p : Fin a) (q : Fin b) (k : Fin K) :
    (rowsDot wf).lhsIdx (ix2 p q) ((contrEquiv1 (rowsDot wf) K rfl rfl).symm k) = ix2 p k :=
  funext fun ax => Fin.ext (by
    match ax with
    | ⟨0, _⟩ => exact rowsDot_lhs_row wf _ _
    | ⟨1, _⟩ =>
      exact ((rowsDot wf).lhsIdx_val_of_single rfl _ _).trans (contrEquiv1_symm_val (rowsDot wf) K rfl rfl k))

/-- … and the right operand at `(q, k)`. -/
theorem rowsDot_rhsIdx (p : Fin a) (q : Fin b) (k : Fin K) :
    (rowsDot wf).rhsIdx (ix2 p q) ((contrEquiv1 (rowsDot wf) K rfl rfl).symm k) = ix2 q k :=
  funext fun ax => Fin.ext (by
    match ax with
    | ⟨0, _⟩ => exact rowsDot_rhs_row wf _ _
    | ⟨1, _⟩ =>
      exact ((rowsDot wf).rhsIdx_val_of_single rfl _ _).trans (contrEquiv1_symm_val (rowsDot wf) K rfl rfl k))

/-- The contraction of a product of rows with rows at `(p, q)`, re-indexed by the contracted coordinate. -/
theorem rowsDot_sum {φ₁ φ₂ : FTy} (l : FVec Ideal ⟨2, ![a, K]⟩ φ₁) (r : FVec Ideal ⟨2, ![b, K]⟩ φ₂) (p : Fin a) (q : Fin b) :
    (∑ k : (rowsDot wf).contr.Idx, l ((rowsDot wf).lhsIdx (ix2 p q) k) * r ((rowsDot wf).rhsIdx (ix2 p q) k))
      = ∑ k : Fin K, l (ix2 p k) * r (ix2 q k) := by
  rw [← Equiv.sum_comp (contrEquiv1 (rowsDot wf) K rfl rfl).symm]
  refine Finset.sum_congr rfl fun k _ => ?_
  rw [rowsDot_lhsIdx, rowsDot_rhsIdx]

/-- A `tpu.matmul` of rows with rows at `(p, q)`: the accumulator's entry plus the row-by-row sum. -/
theorem matmul_rows_apply {φ₁ φ₂ : FTy} (prec : Option ContractPrecision) (l : FVec Ideal ⟨2, ![a, K]⟩ φ₁)
    (r : FVec Ideal ⟨2, ![b, K]⟩ φ₂) (acc : FVec Ideal ⟨2, ![a, b]⟩ .f32) (p : Fin a) (q : Fin b) :
    FloatOps.matmul (rowsDot wf) prec l r acc (ix2 p q) = acc (ix2 p q) + ∑ k : Fin K, l (ix2 p k) * r (ix2 q k) := by
  rw [Ideal.matmul_apply, rowsDot_sum]

/-- Into the zero accumulator: the row-by-row sum alone. -/
theorem matmul_rows_zero_apply {φ₁ φ₂ : FTy} (prec : Option ContractPrecision) (l : FVec Ideal ⟨2, ![a, K]⟩ φ₁)
    (r : FVec Ideal ⟨2, ![b, K]⟩ φ₂) (p : Fin a) (q : Fin b) :
    FloatOps.matmul (rowsDot wf) prec l r (constant ⟨2, ![a, b]⟩ .f32 0x00000000#32) (ix2 p q)
      = ∑ k : Fin K, l (ix2 p k) * r (ix2 q k) := by
  rw [Ideal.matmul_constant_zero_apply, rowsDot_sum]

/-- The host's `dot_general` of rows with rows at `(p, q)`: the same sum. -/
theorem dotGeneral_rows_apply {φ₁ φ₂ : FTy} (prec : Option ContractPrecision) (sched : HostSchedule)
    (l : FVec Ideal ⟨2, ![a, K]⟩ φ₁) (r : FVec Ideal ⟨2, ![b, K]⟩ φ₂) (p : Fin a) (q : Fin b) :
    FloatOps.dotGeneral (rowsDot wf) prec sched l r (ix2 p q) = ∑ k : Fin K, l (ix2 p k) * r (ix2 q k) := by
  rw [Ideal.dotGeneral_apply, rowsDot_sum]

end Cert.Lib

end
-- ==== Proof.Stage2Body.lean ====
/-
  The second kernel's body, read at an index.

  The body loads a block `x` of `1024` rows of the activations, the whole weight matrix `W` (`1024 × 1024`) and the bias as
  one row, and stores `x · Wᵀ + bias`: the product contracts the last axis of both operands, so at `(p, q)` it is the sum over
  `k` of `x (p, k) · W (q, k)`, and the bias row is repeated down the rows. The narrowing of `x` to a shorter float format is
  the identity on the extended reals, and the product starts from the zero accumulator.
-/
import proofs.«131566_j13529146982441_2_alg».proof.Proof.Gen.KernelIdeal.Skeleton
import proofs.«131566_j13529146982441_2_alg».proof.Proof.LibRowsDot
import Idealize.ShloMosaic.Lib.ValueIdx
import Idealize.ShloMosaic.Lib.ValueLayout
import Idealize.ShloMosaic.Lib.Pipeline.Value

noncomputable section

namespace Cert.KernelIdeal.Stage2

open Cert.KernelIdeal Cert.KernelIdeal.Gen
open Idealize.ShloMosaic Idealize.ShloMosaic.ValueIdx
open scoped BigOperators

/-- The stored value at `(p, q)`: row `p` of the activations against row `q` of the weights, plus the bias of column `q`. -/
theorem body_apply (x : Vec Ideal S1024x1024 .f32) (w : Vec Ideal S1024x1024 .bf16) (b : Vec Ideal S1x1024 .f32)
    (p q : Fin 1024) :
    k1_pay1 (F := Ideal) x w b (ix2 p q) = (∑ k : Fin 1024, x (ix2 p k) * w (ix2 q k)) + b (ix2 (0 : Fin 1) q) := by
  unfold k1_pay1
  refine (addf_apply _ _ (ix2 p q)).trans ?_
  refine congrArg₂ (· + ·) ?_ ?_
  · -- the product: a cast to the same shape is the identity, the narrowing is the identity entry by entry
    rw [shapeCast_self]
    exact Cert.Lib.matmul_rows_zero_apply dot_S1024x1024_S1024x1024_S1024x1024_1_1_0_0_n_n_wf none
      (truncf .bf16 x bitsLt_bf16_f32) w p q
  · -- the bias: one row repeated down the rows
    rw [shapeCast_self]
    exact broadcastTo_1b_ab_apply b broadcasts_S1x1024_S1024x1024 p q

end Cert.KernelIdeal.Stage2

end
-- ==== Proof.Stage2Array.lean ====
/-
  The second region's result array, as one function of the arrays the region finds.

  The region runs the body at eight grid points. Point `t` reads rows `1024·t … 1024·t + 1023` of the activations, the whole
  weight matrix and the whole bias row, and writes back rows `1024·t … 1024·t + 1023` of the result. So what point `t` writes
  back is block `t` of ONE function of the arrays: at `(p, q)`, row `p` of the activations against row `q` of the weights,
  plus the bias of column `q`. The eight blocks tile the result's `8192` rows (row `r` lies in block `r / 1024`), so the
  array ends holding that function everywhere.
-/
import proofs.«131566_j13529146982441_2_alg».proof.Proof.Gen.KernelIdeal.Frame
import proofs.«131566_j13529146982441_2_alg».proof.Proof.Stage2Body
import proofs.«131566_j13529146982441_2_alg».proof.Proof.Spec
import Idealize.ShloMosaic.Lib.Pipeline.Value
import Idealize.ShloMosaic.Lib.ValueIdx

set_option maxRecDepth 16384

noncomputable section

namespace Cert.KernelIdeal.Stage2

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

/-- Every load and the store of the body start at the origin of their buffer. -/
theorem origin : (![0, 0] : Fin 2 → Nat) = fun _ => 0 := funext fun a => by fin_cases a <;> rfl

/-- The printed index maps over the grid: the activations' and the result's blocks move down one block of rows per point;
    the weights and the bias stay at their one block. -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `p` of block `t`, as a row of the whole array. -/
def row (t : Fin cfg1.N) (p : Fin 1024) : Fin 8192 :=
  ⟨t.val * 1024 + p.val, by have h : t.val < 8 := lt_of_lt_of_eq t.isLt N_1; have := p.isLt; omega⟩

/-- The result array as one function of the arrays the region finds: `x · Wᵀ + bias`. -/
def whole (c : Dev nD) : S8192x1024.Idx → EReal := fun i =>
  Cert.Hyper.product (fun p k => V c main_arg0 (ix2 p k)) (fun q k => V c main_v7 (ix2 q k))
    (fun q => V c main_v8 (ix2 (0 : Fin 1) q)) (i 0) (i 1)

/-- The activations' block at point `t` is rows `1024·t …` of the array. -/
theorem read_x (c : Dev nD) (t : Fin cfg1.N) (p k : Fin 1024) :
    iblk1 V c 0 t (ix2 p k) = V c main_arg0 (ix2 (row t p) k) := by
  obtain ⟨e0, e1, -⟩ := index_facts t
  show V c main_arg0 (((cfg1.win 0).blk t).view.emb (ix2 p k)) = V c main_arg0 (ix2 (row t p) k)
  refine congrArg _ (funext fun a => Fin.ext ?_)
  match a with
  | ⟨0, _⟩ => show win1_0.index t (0 : Fin 2) * 1024 + 1 * p.val = t.val * 1024 + p.val; rw [e0]; omega
  | ⟨1, _⟩ => show win1_0.index t (1 : Fin 2) * 1024 + 1 * k.val = k.val; rw [e1]; omega

/-- The weights' block at every point is the whole matrix. -/
theorem read_w (c : Dev nD) (t : Fin cfg1.N) (q k : Fin 1024) :
    iblk1 V c 1 t (ix2 q k) = V c main_v7 (ix2 q k) := by
  obtain ⟨-, -, e2, e3, -⟩ := index_facts t
  show V c main_v7 (((cfg1.win 1).blk t).view.emb (ix2 q k)) = V c main_v7 (ix2 q k)
  refine congrArg _ (funext fun a => Fin.ext ?_)
  match a with
  | ⟨0, _⟩ => show win1_1.index t (0 : Fin 2) * 1024 + 1 * q.val = q.val; rw [e2]; omega
  | ⟨1, _⟩ => show win1_1.index t (1 : Fin 2) * 1024 + 1 * k.val = k.val; rw [e3]; omega

/-- The bias block at every point is the whole row. -/
theorem read_b (c : Dev nD) (t : Fin cfg1.N) (q : Fin 1024) :
    iblk1 V c 2 t (ix2 (0 : Fin 1) q) = V c main_v8 (ix2 (0 : Fin 1) q) := by
  obtain ⟨-, -, -, -, e4, e5, -⟩ := index_facts t
  show V c main_v8 (((cfg1.win 2).blk t).view.emb (ix2 (0 : Fin 1) q)) = V c main_v8 (ix2 (0 : Fin 1) q)
  refine congrArg _ (funext fun a => Fin.ext ?_)
  match a with
  | ⟨0, _⟩ => show win1_2.index t (0 : Fin 2) * 1 + 1 * 0 = 0; rw [e4]
  | ⟨1, _⟩ => show win1_2.index t (1 : Fin 2) * 1024 + 1 * q.val = q.val; rw [e5]; omega

/-- Entry `(p, q)` of the result's block `t` is entry `(1024·t + p, q)` of the array. -/
theorem emb_out (t : Fin cfg1.N) (p q : Fin 1024) :
    ((cfg1.win 3).blk t).view.emb (ix2 p q) = ix2 (row t p) q := by
  obtain ⟨-, -, -, -, -, -, e6, e7⟩ := index_facts t
  refine funext fun a => Fin.ext ?_
  match a with
  | ⟨0, _⟩ => show win1_3.index t (0 : Fin 2) * 1024 + 1 * p.val = t.val * 1024 + p.val; rw [e6]; omega
  | ⟨1, _⟩ => show win1_3.index t (1 : Fin 2) * 1024 + 1 * q.val = q.val; rw [e7]; omega

/-- What point `t` writes back is block `t` of `whole`. -/
theorem flushed_eq (c : Dev nD) (t : Fin cfg1.N) :
    (dat1 V c).flushed 3 t = ((cfg1.win 3).blk t).view.read (Elt Ideal) (whole V c) := by
  show (cfg1.win 3).cut (grid1.coords t) ((dat1 V c).after 3 t) = _
  rw [after1_3]
  unfold out1_3
  rw [View.canon_unit_zero origin]
  simp only [View.ld_unit_zero (S := S1024x1024) origin, View.ld_unit_zero (S := S1x1024) origin]
  funext y
  obtain ⟨p, q, rfl⟩ : ∃ (p q : Fin 1024), y = ix2 p q := ⟨y 0, y 1, eq_ix2 y⟩
  show k1_pay1 (F := Ideal) (iblk1 V c 0 t) (iblk1 V c 1 t) (iblk1 V c 2 t) (ix2 p q)
    = whole V c (((cfg1.win 3).blk t).view.emb (ix2 p q))
  rw [emb_out t p q]
  refine (body_apply (iblk1 V c 0 t) (iblk1 V c 1 t) (iblk1 V c 2 t) p q).trans ?_
  show _ = Cert.Hyper.product (fun p k => V c main_arg0 (ix2 p k)) (fun q k => V c main_v7 (ix2 q k))
    (fun q => V c main_v8 (ix2 (0 : Fin 1) q)) (row t p) q
  unfold Cert.Hyper.product
  refine congrArg₂ (· + ·) (Finset.sum_congr rfl fun k _ => ?_) (read_b V c t q)
  rw [read_x V c t p k, read_w V c t q k]

/-- An index of the array is in point `t`'s block iff each coordinate is in the block's range on its axis. -/
theorem mem_block (t : Fin cfg1.N) (i : S8192x1024.Idx) :
    i ∈ ((cfg1.win 3).blk t).view.set
      ↔ ∀ a : Fin 2, win1_3.index t a * S1024x1024.size a ≤ (i a).val ∧ (i a).val < win1_3.index t a * S1024x1024.size a + S1024x1024.size a := by
  show i ∈ ((View.whole main_v9).slice (win1_3.rect t)).set ↔ _
  rw [View.set_slice_whole, Rect.mem_set_unit]
  exact Iff.rfl

/-- Every index of the result lies in some point's block: row `r` in block `r / 1024`. -/
theorem covered (i : S8192x1024.Idx) :
    ∃ t : Fin cfg1.N, (cfg1.win 3).flush t = true ∧ i ∈ ((cfg1.win 3).blk t).view.set := by
  have hi0 : (i 0).val < 8192 := (i 0).isLt
  have hi1 : (i 1).val < 1024 := (i 1).isLt
  have hN : (i 0).val / 1024 < cfg1.N := lt_of_lt_of_eq (by omega : (i 0).val / 1024 < 8) N_1.symm
  refine ⟨⟨(i 0).val / 1024, hN⟩, flush1_3 _, ?_⟩
  obtain ⟨-, -, -, -, -, -, e6, e7⟩ := index_facts ⟨(i 0).val / 1024, hN⟩
  rw [mem_block]
  intro a
  match a with
  | ⟨0, _⟩ =>
    show win1_3.index ⟨(i 0).val / 1024, hN⟩ (0 : Fin 2) * 1024 ≤ (i 0).val
      ∧ (i 0).val < win1_3.index ⟨(i 0).val / 1024, hN⟩ (0 : Fin 2) * 1024 + 1024
    rw [e6]; show (i 0).val / 1024 * 1024 ≤ (i 0).val ∧ (i 0).val < (i 0).val / 1024 * 1024 + 1024; omega
  | ⟨1, _⟩ =>
    show win1_3.index ⟨(i 0).val / 1024, hN⟩ (1 : Fin 2) * 1024 ≤ (i 1).val
      ∧ (i 1).val < win1_3.index ⟨(i 0).val / 1024, hN⟩ (1 : Fin 2) * 1024 + 1024
    rw [e7]; omega

/-- The result array after the region: `x · Wᵀ + bias` of the arrays the region finds. -/
theorem array_eq (c : Dev nD) : (dat1 V c).arrAt 3 cfg1.N = whole V c :=
  (dat1 V c).arrAt_eq_of_cover 3 (whole V c) (fun t _ => flushed_eq V c t) (covered)

end Cert.KernelIdeal.Stage2

end
-- ==== Proof.HostGlue.lean ====
/-
  What the host operations of the program leave in the buffers each region reads, index by index: transposes and
  reshapes of the small parameters before the first region, a row-major reshape of the first region's result and of
  the bias between the two regions. A buffer no operation writes holds what it held at launch.
-/
import proofs.«131566_j13529146982441_2_alg».proof.Proof.Gen.KernelIdeal.Frame
import proofs.«131566_j13529146982441_2_alg».proof.Proof.Spec
import Idealize.ShloMosaic.Lib.ValueLayout

set_option maxRecDepth 16384

noncomputable section

namespace Cert.KernelIdeal.Glue

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-! ## Buffers the host operations leave alone -/

/-- A buffer no operation of the first host stretch writes holds, at the first region's entry, what it held at
    launch. -/
theorem W1_of_not_written (c : Dev nD) (b : Ref sig .tc)
    (hb : ∀ op ∈ (hostOps0 : List (HloOp τ sig (Elt F))), Proc.devRef .tc b ∉ op.writes) :
    W1 m ρ c (Proc.devRef .tc b) = m ((c : Thread nD τ).loc b) :=
  (StableHlo.after_of_forall_not_mem (b := Proc.devRef .tc b) _ _ hb).trans rfl

/-- A buffer that is no array of the first region and that no operation of the second host stretch writes holds, at
    the second region's entry, what it held at the first region's entry. -/
theorem W3_of_not_written (c : Dev nD) (b : Ref sig .tc) (hne : ∀ w, Pipeline.arrRef spec0 w ≠ b)
    (hb : ∀ op ∈ (hostOps1 : List (HloOp τ sig (Elt F))), Proc.devRef .tc b ∉ op.writes) :
    W3 m ρ c (Proc.devRef .tc b) = W1 m ρ c (Proc.devRef .tc b) :=
  (StableHlo.after_of_forall_not_mem (b := Proc.devRef .tc b) _ _ hb).trans (W2_of_ne m ρ c b hne)

theorem W1_arg1 (c : Dev nD) : W1 m ρ c (Proc.devRef .tc main_arg1) = m ((c : Thread nD τ).loc main_arg1) :=
  W1_of_not_written m ρ c main_arg1 (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W1_arg2 (c : Dev nD) : W1 m ρ c (Proc.devRef .tc main_arg2) = m ((c : Thread nD τ).loc main_arg2) :=
  W1_of_not_written m ρ c main_arg2 (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W1_arg0 (c : Dev nD) : W1 m ρ c (Proc.devRef .tc main_arg0) = m ((c : Thread nD τ).loc main_arg0) :=
  W1_of_not_written m ρ c main_arg0 (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W1_arg8 (c : Dev nD) : W1 m ρ c (Proc.devRef .tc main_arg8) = m ((c : Thread nD τ).loc main_arg8) :=
  W1_of_not_written m ρ c main_arg8 (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The embedding table reaches the first region as launched. -/
theorem V1_arg1 (c : Dev nD) : V1 m ρ c main_arg1 = m ((c : Thread nD τ).loc main_arg1) := W1_arg1 m ρ c

/-- The second stage's left operand reaches the second region as launched. -/
theorem V3_arg0 (c : Dev nD) : V3 m ρ c main_arg0 = m ((c : Thread nD τ).loc main_arg0) :=
  (W3_of_not_written m ρ c main_arg0 (by decide) (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W1_arg0 m ρ c)

/-! ## The first host stretch: each parameter transposed or given a unit axis -/

theorem V1_v0_eq (c : Dev nD) :
    (V1 m ρ c main_v0 : S18x64.Idx → Elt F .f32)
      = transpose S18x64 [1, 0] (m ((c : Thread nD τ).loc main_arg2)) transposes_S64x18_S18x64_1_0 := by
  dsimp only [V1, W1, W0]
  after_results

/-- The first layer's weights arrive transposed: entry `(t, j)` is the launch matrix's `(j, t)`. -/
theorem V1_v0 (c : Dev nD) (t : Fin 18) (j : Fin 64) :
    (V1 m ρ c main_v0 : S18x64.Idx → Elt F .f32) (ix2 t j) = m ((c : Thread nD τ).loc main_arg2) (ix2 j t) := by
  rw [V1_v0_eq]
  exact transpose_ix2_apply _ _ t j

theorem V1_v1_eq (c : Dev nD) :
    (V1 m ρ c main_v1 : S1x64.Idx → Elt F .f32)
      = shapeCast S1x64 (m ((c : Thread nD τ).loc main_arg3)) shapeCasts_S64_S1x64 := by
  dsimp only [V1, W1, W0]
  after_results
  rfl

/-- The first layer's bias arrives as one row. -/
theorem V1_v1 (c : Dev nD) (u : Fin 1) (j : Fin 64) :
    (V1 m ρ c main_v1 : S1x64.Idx → Elt F .f32) (ix2 u j) = m ((c : Thread nD τ).loc main_arg3) (ix1 j) := by
  rw [V1_v1_eq]
  exact shapeCast_a_1a_apply _ _ u j

theorem V1_v2_eq (c : Dev nD) :
    (V1 m ρ c main_v2 : S64x64.Idx → Elt F .f32)
      = transpose S64x64 [1, 0] (m ((c : Thread nD τ).loc main_arg4)) transposes_S64x64_S64x64_1_0 := by
  dsimp only [V1, W1, W0]
  after_results

/-- The second layer's weights arrive transposed. -/
theorem V1_v2 (c : Dev nD) (j k : Fin 64) :
    (V1 m ρ c main_v2 : S64x64.Idx → Elt F .f32) (ix2 j k) = m ((c : Thread nD τ).loc main_arg4) (ix2 k j) := by
  rw [V1_v2_eq]
  exact transpose_ix2_apply _ _ j k

theorem V1_v3_eq (c : Dev nD) :
    (V1 m ρ c main_v3 : S1x64.Idx → Elt F .f32)
      = shapeCast S1x64 (m ((c : Thread nD τ).loc main_arg5)) shapeCasts_S64_S1x64 := by
  dsimp only [V1, W1, W0]
  after_results
  rfl

/-- The second layer's bias arrives as one row. -/
theorem V1_v3 (c : Dev nD) (u : Fin 1) (k : Fin 64) :
    (V1 m ρ c main_v3 : S1x64.Idx → Elt F .f32) (ix2 u k) = m ((c : Thread nD τ).loc main_arg5) (ix1 k) := by
  rw [V1_v3_eq]
  exact shapeCast_a_1a_apply _ _ u k

theorem V1_v4_eq (c : Dev nD) :
    (V1 m ρ c main_v4 : S64x1.Idx → Elt F .f32)
      = transpose S64x1 [1, 0] (m ((c : Thread nD τ).loc main_arg6)) transposes_S1x64_S64x1_1_0 := by
  dsimp only [V1, W1, W0]
  after_results

/-- The read-out's one row of weights arrives as one column. -/
theorem V1_v4 (c : Dev nD) (k : Fin 64) (u : Fin 1) :
    (V1 m ρ c main_v4 : S64x1.Idx → Elt F .f32) (ix2 k u) = m ((c : Thread nD τ).loc main_arg6) (ix2 (0 : Fin 1) k) := by
  have hu : u = 0 := Subsingleton.elim _ _
  subst hu
  rw [V1_v4_eq]
  exact transpose_ix2_apply _ _ k (0 : Fin 1)

theorem V1_v5_eq (c : Dev nD) :
    (V1 m ρ c main_v5 : S1x1.Idx → Elt F .f32)
      = shapeCast S1x1 (m ((c : Thread nD τ).loc main_arg7)) shapeCasts_S1_S1x1 := by
  dsimp only [V1, W1, W0]
  after_results
  rfl

/-- The read-out's bias arrives as a one-by-one matrix. -/
theorem V1_v5 (c : Dev nD) (u v : Fin 1) :
    (V1 m ρ c main_v5 : S1x1.Idx → Elt F .f32) (ix2 u v) = m ((c : Thread nD τ).loc main_arg7) (ix1 (0 : Fin 1)) := by
  have hv : v = 0 := Subsingleton.elim _ _
  subst hv
  rw [V1_v5_eq]
  exact shapeCast_a_1a_apply _ _ u (0 : Fin 1)

/-! ## The second host stretch: the weight table read as a matrix, the bias as one row -/

theorem W3_v7_eq (c : Dev nD) :
    (W3 m ρ c (Proc.devRef .tc main_v7) : S1024x1024.Idx → Elt F .bf16)
      = shapeCast S1024x1024 (W2 m ρ c (Proc.devRef .tc main_v6)) shapeCasts_S1048576x1_S1024x1024 := by
  dsimp only [W3]
  after_results
  rfl

/-- The second region's matrix at `(q, k)` is row `q · 1024 + k` of the table the first region leaves. -/
theorem V3_v7 (c : Dev nD) (q k : Fin 1024) :
    (V3 m ρ c main_v7 : S1024x1024.Idx → Elt F .bf16) (ix2 q k)
      = ((dat0 (V1 m ρ) c).arrAt 7 cfg0.N : S1048576x1.Idx → Elt F .bf16) (ix2 (Cert.Hyper.flat q k) (0 : Fin 1)) := by
  show (W3 m ρ c (Proc.devRef .tc main_v7) : S1024x1024.Idx → Elt F .bf16) (ix2 q k) = _
  rw [W3_v7_eq]
  refine (shapeCast_apply _ _ (ix2 q k) (ix2 (Cert.Hyper.flat q k) (0 : Fin 1)) ?_).trans ?_
  · rw [Shape.rowMajor_val_two, Shape.rowMajor_val_two]
    show (q.val * 1024 + k.val) * 1 + 0 = q.val * 1024 + k.val
    omega
  · exact congrArg (fun f : S1048576x1.Idx → Elt F .bf16 => f (ix2 (Cert.Hyper.flat q k) (0 : Fin 1))) (W2_arr m ρ c 7)

theorem W3_v8_eq (c : Dev nD) :
    (W3 m ρ c (Proc.devRef .tc main_v8) : S1x1024.Idx → Elt F .f32)
      = shapeCast S1x1024 (W2 m ρ c (Proc.devRef .tc main_arg8)) shapeCasts_S1024_S1x1024 := by
  dsimp only [W3]
  after_results
  rfl

/-- The second stage's bias arrives as one row. -/
theorem V3_v8 (c : Dev nD) (u : Fin 1) (q : Fin 1024) :
    (V3 m ρ c main_v8 : S1x1024.Idx → Elt F .f32) (ix2 u q) = m ((c : Thread nD τ).loc main_arg8) (ix1 q) := by
  show (W3 m ρ c (Proc.devRef .tc main_v8) : S1x1024.Idx → Elt F .f32) (ix2 u q) = _
  rw [W3_v8_eq]
  refine (shapeCast_a_1a_apply _ _ u q).trans ?_
  exact congrArg (fun f : S1024.Idx → Elt F .f32 => f (ix1 q)) ((W2_of_ne m ρ c main_arg8 (by decide)).trans (W1_arg8 m ρ c))

/-! ## The result buffer -/

/-- The result buffer ends at what the second region's write-backs leave. -/
theorem W4_v9 (c : Dev nD) : W4 m ρ c (Proc.devRef .tc main_v9) = (dat1 (V3 m ρ) c).arrAt 3 cfg1.N := W4_arr m ρ c 3

end Cert.KernelIdeal.Glue

end
-- ==== Proof.KernelValue.lean ====
/-
  What the idealized kernel program returns, as one function of its nine arguments.

  The fold through the program's segments ends, at the result buffer, at the second region's result array. That array
  is `x · Wᵀ + bias` of what the region finds: `x` and `bias` are the arguments (the bias reshaped to a row), and `W` is
  the first region's result column read row-major as a `1024 × 1024` matrix. The first region's column holds, at row
  `n`, the perceptron's value on row `n` of the embedding table, with the parameter arrays the host handed it: each
  weight matrix transposed, each bias reshaped to a row. Undoing those layout changes index by index gives the
  specification's `result` of the arguments themselves.
-/
import proofs.«131566_j13529146982441_2_alg».proof.Proof.Gen.KernelIdeal.Frame
import proofs.«131566_j13529146982441_2_alg».proof.Proof.Stage1Array
import proofs.«131566_j13529146982441_2_alg».proof.Proof.Stage2Array
import proofs.«131566_j13529146982441_2_alg».proof.Proof.HostGlue
import proofs.«131566_j13529146982441_2_alg».proof.Proof.Spec

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- The weight matrix the second region finds: entry `(q, k)` is the perceptron's value on row `q · 1024 + k` of the
    embedding table, from the arguments themselves. -/
theorem weights_eq (c : Dev nD) (q k : Fin 1024) :
    (V3 m ρ c main_v7 : S1024x1024.Idx → Elt Ideal .bf16) (ix2 q k)
      = Cert.Hyper.weight (fun j t => m ((c : Thread nD τ).loc main_arg2) (ix2 j t))
          (fun j => m ((c : Thread nD τ).loc main_arg3) (ix1 j))
          (fun k j => m ((c : Thread nD τ).loc main_arg4) (ix2 k j))
          (fun k => m ((c : Thread nD τ).loc main_arg5) (ix1 k))
          (fun k => m ((c : Thread nD τ).loc main_arg6) (ix2 (0 : Fin 1) k))
          (m ((c : Thread nD τ).loc main_arg7) (ix1 (0 : Fin 1)))
          (fun t => m ((c : Thread nD τ).loc main_arg1) (ix2 (Cert.Hyper.flat q k) t)) := by
  rw [Glue.V3_v7 m ρ c q k, Stage1.array_eq (V1 m ρ) c]
  unfold Stage1.whole
  -- the parameters as the host handed them to the region, read back to the arguments
  have h1 : (fun (j : Fin 64) (t : Fin 18) => (V1 m ρ c main_v0 : S18x64.Idx → Elt Ideal .f32) (ix2 t j))
      = fun j t => m ((c : Thread nD τ).loc main_arg2) (ix2 j t) :=
    funext fun j => funext fun t => Glue.V1_v0 m ρ c t j
  have h2 : (fun j : Fin 64 => (V1 m ρ c main_v1 : S1x64.Idx → Elt Ideal .f32) (ix2 (0 : Fin 1) j))
      = fun j => m ((c : Thread nD τ).loc main_arg3) (ix1 j) :=
    funext fun j => Glue.V1_v1 m ρ c 0 j
  have h3 : (fun (k j : Fin 64) => (V1 m ρ c main_v2 : S64x64.Idx → Elt Ideal .f32) (ix2 j k))
      = fun k j => m ((c : Thread nD τ).loc main_arg4) (ix2 k j) :=
    funext fun k => funext fun j => Glue.V1_v2 m ρ c j k
  have h4 : (fun k : Fin 64 => (V1 m ρ c main_v3 : S1x64.Idx → Elt Ideal .f32) (ix2 (0 : Fin 1) k))
      = fun k => m ((c : Thread nD τ).loc main_arg5) (ix1 k) :=
    funext fun k => Glue.V1_v3 m ρ c 0 k
  have h5 : (fun k : Fin 64 => (V1 m ρ c main_v4 : S64x1.Idx → Elt Ideal .f32) (ix2 k (0 : Fin 1)))
      = fun k => m ((c : Thread nD τ).loc main_arg6) (ix2 (0 : Fin 1) k) :=
    funext fun k => Glue.V1_v4 m ρ c k 0
  have h6 : (V1 m ρ c main_v5 : S1x1.Idx → Elt Ideal .f32) (ix2 (0 : Fin 1) (0 : Fin 1))
      = m ((c : Thread nD τ).loc main_arg7) (ix1 (0 : Fin 1)) := Glue.V1_v5 m ρ c 0 0
  show Cert.Hyper.weight
      (fun (j : Fin 64) (t : Fin 18) => (V1 m ρ c main_v0 : S18x64.Idx → Elt Ideal .f32) (ix2 t j))
      (fun j : Fin 64 => (V1 m ρ c main_v1 : S1x64.Idx → Elt Ideal .f32) (ix2 (0 : Fin 1) j))
      (fun (k j : Fin 64) => (V1 m ρ c main_v2 : S64x64.Idx → Elt Ideal .f32) (ix2 j k))
      (fun k : Fin 64 => (V1 m ρ c main_v3 : S1x64.Idx → Elt Ideal .f32) (ix2 (0 : Fin 1) k))
      (fun k : Fin 64 => (V1 m ρ c main_v4 : S64x1.Idx → Elt Ideal .f32) (ix2 k (0 : Fin 1)))
      ((V1 m ρ c main_v5 : S1x1.Idx → Elt Ideal .f32) (ix2 (0 : Fin 1) (0 : Fin 1)))
      (fun t : Fin 18 => (V1 m ρ c main_arg1 : S1048576x18.Idx → Elt Ideal .f32) (ix2 (Cert.Hyper.flat q k) t)) = _
  rw [h1, h2, h3, h4, h5, h6, Glue.V1_arg1 m ρ c]

/-- The program's result: the specification's `result` of the nine arguments, index by index. -/
theorem result_eq (c : Dev nD) :
    W4 m ρ c (Proc.devRef .tc main_v9)
      = fun i => Cert.Hyper.result (fun p k => m ((c : Thread nD τ).loc main_arg0) (ix2 p k))
          (fun n t => m ((c : Thread nD τ).loc main_arg1) (ix2 n t))
          (fun j t => m ((c : Thread nD τ).loc main_arg2) (ix2 j t))
          (fun j => m ((c : Thread nD τ).loc main_arg3) (ix1 j))
          (fun k j => m ((c : Thread nD τ).loc main_arg4) (ix2 k j))
          (fun k => m ((c : Thread nD τ).loc main_arg5) (ix1 k))
          (fun k => m ((c : Thread nD τ).loc main_arg6) (ix2 (0 : Fin 1) k))
          (m ((c : Thread nD τ).loc main_arg7) (ix1 (0 : Fin 1)))
          (fun q => m ((c : Thread nD τ).loc main_arg8) (ix1 q)) (i 0) (i 1) := by
  rw [Glue.W4_v9 m ρ c, Stage2.array_eq (V3 m ρ) c]
  unfold Stage2.whole Cert.Hyper.result
  have hx : (fun (p : Fin 8192) (k : Fin 1024) => (V3 m ρ c main_arg0 : S8192x1024.Idx → Elt Ideal .f32) (ix2 p k))
      = fun p k => m ((c : Thread nD τ).loc main_arg0) (ix2 p k) := by
    rw [Glue.V3_arg0 m ρ c]
  have hW : (fun (q k : Fin 1024) => (V3 m ρ c main_v7 : S1024x1024.Idx → Elt Ideal .bf16) (ix2 q k))
      = fun q k => Cert.Hyper.weight (fun j t => m ((c : Thread nD τ).loc main_arg2) (ix2 j t))
          (fun j => m ((c : Thread nD τ).loc main_arg3) (ix1 j))
          (fun k j => m ((c : Thread nD τ).loc main_arg4) (ix2 k j))
          (fun k => m ((c : Thread nD τ).loc main_arg5) (ix1 k))
          (fun k => m ((c : Thread nD τ).loc main_arg6) (ix2 (0 : Fin 1) k))
          (m ((c : Thread nD τ).loc main_arg7) (ix1 (0 : Fin 1)))
          (fun t => m ((c : Thread nD τ).loc main_arg1) (ix2 (Cert.Hyper.flat q k) t)) :=
    funext fun q => funext fun k => weights_eq m ρ c q k
  have hb : (fun q : Fin 1024 => (V3 m ρ c main_v8 : S1x1024.Idx → Elt Ideal .f32) (ix2 (0 : Fin 1) q))
      = fun q => m ((c : Thread nD τ).loc main_arg8) (ix1 q) :=
    funext fun q => Glue.V3_v8 m ρ c 0 q
  funext i
  show Cert.Hyper.product
      (fun (p : Fin 8192) (k : Fin 1024) => (V3 m ρ c main_arg0 : S8192x1024.Idx → Elt Ideal .f32) (ix2 p k))
      (fun (q k : Fin 1024) => (V3 m ρ c main_v7 : S1024x1024.Idx → Elt Ideal .bf16) (ix2 q k))
      (fun q : Fin 1024 => (V3 m ρ c main_v8 : S1x1024.Idx → Elt Ideal .f32) (ix2 (0 : Fin 1) q)) (i 0) (i 1) = _
  rw [hx, hW, hb]

end Cert.KernelIdeal.Whole

end
-- ==== Proof.RefValue.lean ====
/-
  The reference program's result is the specification.

  Each stage of the reference is read at an index given by explicit coordinates: the first sine layer at `(n, j)`, the
  second at `(n, k)`, the read-out at `(n, 0)`, the weight matrix (the read-out reshaped row-major to `1024 × 1024` and
  transposed) at `(k, q)`, and the final product with its bias at `(p, q)`.
-/
import proofs.«131566_j13529146982441_2_alg».proof.Proof.Spec
import proofs.«131566_j13529146982441_2_alg».proof.Proof.Gen.ReferenceIdeal.Read

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx
open scoped BigOperators

/-- The first sine layer at `(n, j)`. -/
theorem layer1 (x1 : (⟨S1048576x18, .f32⟩ : BufTy).Contents (Elt Ideal)) (x2 : (⟨S64x18, .f32⟩ : BufTy).Contents (Elt Ideal))
    (x3 : (⟨S64, .f32⟩ : BufTy).Contents (Elt Ideal)) (n : Fin 1048576) (j : Fin 64) :
    val_main_v7 (F := Ideal) x1 x2 x3 (ix2 n j)
      = Cert.Hyper.sinLayer (fun j t => x2 (ix2 j t)) (fun j => x3 (ix1 j)) (fun t => x1 (ix2 n t)) j := by
  rw [val_main_v7_apply, val_main_v6_apply, val_main_v5_apply, val_main_cst_apply, val_main_v4_apply, val_main_v1_apply,
    val_main_v3_apply, val_main_v2_apply]
  unfold Cert.Hyper.sinLayer Cert.Hyper.freq
  simp only [Ideal.hostUnary_sin_def, Ideal.mulf_def, Ideal.addf_def, Ideal.ofBits_def]
  have hs : ∀ t : Fin 18, x1 (lidx_main_v1 (ix2 n j) t) * val_main_v0 (F := Ideal) x2 (ridx_main_v1 (ix2 n j) t)
      = x1 (ix2 n t) * x2 (ix2 j t) := by
    intro t
    rw [val_main_v0_apply]
    have e1 : lidx_main_v1 (ix2 n j) t = ix2 n t := funext fun a => by
      match a with
      | ⟨0, _⟩ => rfl
      | ⟨1, _⟩ => rfl
    have e2 : idx_main_v0 (ridx_main_v1 (ix2 n j) t) = ix2 j t := funext fun a => by
      match a with
      | ⟨0, _⟩ => rfl
      | ⟨1, _⟩ => rfl
    rw [e1, e2]
  have hb : idx_main_v2 (idx_main_v3 (ix2 n j)) = ix1 j := funext fun a => by
    match a with
    | ⟨0, _⟩ => rfl
  rw [hb, Finset.sum_congr rfl fun t _ => hs t]

/-- The second sine layer at `(n, k)`. -/
theorem layer2 (x1 : (⟨S1048576x18, .f32⟩ : BufTy).Contents (Elt Ideal)) (x2 : (⟨S64x18, .f32⟩ : BufTy).Contents (Elt Ideal))
    (x3 : (⟨S64, .f32⟩ : BufTy).Contents (Elt Ideal)) (x4 : (⟨S64x64, .f32⟩ : BufTy).Contents (Elt Ideal))
    (x5 : (⟨S64, .f32⟩ : BufTy).Contents (Elt Ideal)) (n : Fin 1048576) (k : Fin 64) :
    val_main_v15 (F := Ideal) x1 x2 x3 x4 x5 (ix2 n k)
      = Cert.Hyper.sinLayer (fun k j => x4 (ix2 k j)) (fun k => x5 (ix1 k))
          (Cert.Hyper.sinLayer (fun j t => x2 (ix2 j t)) (fun j => x3 (ix1 j)) (fun t => x1 (ix2 n t))) k := by
  rw [val_main_v15_apply, val_main_v14_apply, val_main_v13_apply, val_main_cst_0_apply, val_main_v12_apply, val_main_v9_apply,
    val_main_v11_apply, val_main_v10_apply]
  conv_rhs => unfold Cert.Hyper.sinLayer Cert.Hyper.freq
  simp only [Ideal.hostUnary_sin_def, Ideal.mulf_def, Ideal.addf_def, Ideal.ofBits_def]
  have hs : ∀ j : Fin 64, val_main_v7 (F := Ideal) x1 x2 x3 (lidx_main_v9 (ix2 n k) j) * val_main_v8 (F := Ideal) x4 (ridx_main_v9 (ix2 n k) j)
      = Cert.Hyper.sinLayer (fun j t => x2 (ix2 j t)) (fun j => x3 (ix1 j)) (fun t => x1 (ix2 n t)) j * x4 (ix2 k j) := by
    intro j
    rw [val_main_v8_apply]
    have e1 : lidx_main_v9 (ix2 n k) j = ix2 n j := funext fun a => by
      match a with
      | ⟨0, _⟩ => rfl
      | ⟨1, _⟩ => rfl
    have e2 : idx_main_v8 (ridx_main_v9 (ix2 n k) j) = ix2 k j := funext fun a => by
      match a with
      | ⟨0, _⟩ => rfl
      | ⟨1, _⟩ => rfl
    rw [e1, e2, layer1]
  have hb : idx_main_v10 (idx_main_v11 (ix2 n k)) = ix1 k := funext fun a => by
    match a with
    | ⟨0, _⟩ => rfl
  rw [hb, Finset.sum_congr rfl fun j _ => hs j]
  rfl

/-- The read-out at `(n, 0)`: the generated weight of embedding row `n`. -/
theorem readout (x1 : (⟨S1048576x18, .f32⟩ : BufTy).Contents (Elt Ideal)) (x2 : (⟨S64x18, .f32⟩ : BufTy).Contents (Elt Ideal))
    (x3 : (⟨S64, .f32⟩ : BufTy).Contents (Elt Ideal)) (x4 : (⟨S64x64, .f32⟩ : BufTy).Contents (Elt Ideal))
    (x5 : (⟨S64, .f32⟩ : BufTy).Contents (Elt Ideal)) (x6 : (⟨S1x64, .f32⟩ : BufTy).Contents (Elt Ideal))
    (x7 : (⟨S1, .f32⟩ : BufTy).Contents (Elt Ideal)) (n : Fin 1048576) :
    val_main_v20 (F := Ideal) x1 x2 x3 x4 x5 x6 x7 (ix2 n (0 : Fin 1))
      = Cert.Hyper.weight (fun j t => x2 (ix2 j t)) (fun j => x3 (ix1 j)) (fun k j => x4 (ix2 k j)) (fun k => x5 (ix1 k))
          (fun k => x6 (ix2 (0 : Fin 1) k)) (x7 (ix1 (0 : Fin 1))) (fun t => x1 (ix2 n t)) := by
  rw [val_main_v20_apply, val_main_v17_apply, val_main_v19_apply, val_main_v18_apply]
  unfold Cert.Hyper.weight Cert.Hyper.readOut
  simp only [Ideal.addf_def]
  have hs : ∀ k : Fin 64, val_main_v15 (F := Ideal) x1 x2 x3 x4 x5 (lidx_main_v17 (ix2 n (0 : Fin 1)) k)
        * val_main_v16 (F := Ideal) x6 (ridx_main_v17 (ix2 n (0 : Fin 1)) k)
      = Cert.Hyper.sinLayer (fun k j => x4 (ix2 k j)) (fun k => x5 (ix1 k))
          (Cert.Hyper.sinLayer (fun j t => x2 (ix2 j t)) (fun j => x3 (ix1 j)) (fun t => x1 (ix2 n t))) k * x6 (ix2 (0 : Fin 1) k) := by
    intro k
    rw [val_main_v16_apply]
    have e1 : lidx_main_v17 (ix2 n (0 : Fin 1)) k = ix2 n k := funext fun a => by
      match a with
      | ⟨0, _⟩ => rfl
      | ⟨1, _⟩ => rfl
    have e2 : idx_main_v16 (ridx_main_v17 (ix2 n (0 : Fin 1)) k) = ix2 (0 : Fin 1) k := funext fun a => by
      match a with
      | ⟨0, _⟩ => rfl
      | ⟨1, _⟩ => rfl
    rw [e1, e2, layer2]
  have hb : idx_main_v18 (idx_main_v19 (ix2 n (0 : Fin 1))) = ix1 (0 : Fin 1) := funext fun a => by
    match a with
    | ⟨0, _⟩ => rfl
  rw [hb, Finset.sum_congr rfl fun k _ => hs k]

/-- The weight matrix as the second product reads it: entry `(k, q)` of the transposed matrix is the generated weight of
    embedding row `q · 1024 + k`. -/
theorem weightMat (x1 : (⟨S1048576x18, .f32⟩ : BufTy).Contents (Elt Ideal)) (x2 : (⟨S64x18, .f32⟩ : BufTy).Contents (Elt Ideal))
    (x3 : (⟨S64, .f32⟩ : BufTy).Contents (Elt Ideal)) (x4 : (⟨S64x64, .f32⟩ : BufTy).Contents (Elt Ideal))
    (x5 : (⟨S64, .f32⟩ : BufTy).Contents (Elt Ideal)) (x6 : (⟨S1x64, .f32⟩ : BufTy).Contents (Elt Ideal))
    (x7 : (⟨S1, .f32⟩ : BufTy).Contents (Elt Ideal)) (k q : Fin 1024) :
    val_main_v22 (F := Ideal) x1 x2 x3 x4 x5 x6 x7 (ix2 k q)
      = Cert.Hyper.weight (fun j t => x2 (ix2 j t)) (fun j => x3 (ix1 j)) (fun k j => x4 (ix2 k j)) (fun k => x5 (ix1 k))
          (fun k => x6 (ix2 (0 : Fin 1) k)) (x7 (ix1 (0 : Fin 1))) (fun t => x1 (ix2 (Cert.Hyper.flat q k) t)) := by
  rw [val_main_v22_apply, val_main_v21_apply]
  have e : idx_main_v21 (idx_main_v22 (ix2 k q)) = ix2 (Cert.Hyper.flat q k) (0 : Fin 1) := funext fun a => by
    match a with
    | ⟨0, _⟩ => exact Fin.ext (Nat.div_one _)
    | ⟨1, _⟩ => rfl
  rw [e, readout]

/-- The reference's result at `(p, q)` is the specification's. -/
theorem ref_result (x0 : (⟨S8192x1024, .f32⟩ : BufTy).Contents (Elt Ideal)) (x1 : (⟨S1048576x18, .f32⟩ : BufTy).Contents (Elt Ideal)) (x2 : (⟨S64x18, .f32⟩ : BufTy).Contents (Elt Ideal))
    (x3 : (⟨S64, .f32⟩ : BufTy).Contents (Elt Ideal)) (x4 : (⟨S64x64, .f32⟩ : BufTy).Contents (Elt Ideal))
    (x5 : (⟨S64, .f32⟩ : BufTy).Contents (Elt Ideal)) (x6 : (⟨S1x64, .f32⟩ : BufTy).Contents (Elt Ideal))
    (x7 : (⟨S1, .f32⟩ : BufTy).Contents (Elt Ideal))
    (x8 : (⟨S1024, .f32⟩ : BufTy).Contents (Elt Ideal)) :
    Cert.ReferenceIdeal.Read.val_main_v26 (F := Ideal) x0 x1 x2 x3 x4 x5 x6 x7 x8
      = fun i => Cert.Hyper.result (fun p k => x0 (ix2 p k)) (fun n t => x1 (ix2 n t)) (fun j t => x2 (ix2 j t)) (fun j => x3 (ix1 j))
          (fun k j => x4 (ix2 k j)) (fun k => x5 (ix1 k)) (fun k => x6 (ix2 (0 : Fin 1) k)) (x7 (ix1 (0 : Fin 1))) (fun q => x8 (ix1 q)) (i 0) (i 1) := by
  funext i
  obtain ⟨p, q, rfl⟩ : ∃ (p : Fin 8192) (q : Fin 1024), i = ix2 p q := ⟨i 0, i 1, eq_ix2 i⟩
  show val_main_v26 (F := Ideal) x0 x1 x2 x3 x4 x5 x6 x7 x8 (ix2 p q)
      = Cert.Hyper.result (fun p k => x0 (ix2 p k)) (fun n t => x1 (ix2 n t)) (fun j t => x2 (ix2 j t)) (fun j => x3 (ix1 j))
          (fun k j => x4 (ix2 k j)) (fun k => x5 (ix1 k)) (fun k => x6 (ix2 (0 : Fin 1) k)) (x7 (ix1 (0 : Fin 1))) (fun q => x8 (ix1 q)) p q
  rw [val_main_v26_apply, val_main_v23_apply, val_main_v25_apply, val_main_v24_apply]
  unfold Cert.Hyper.result Cert.Hyper.product
  simp only [Ideal.addf_def]
  have hs : ∀ k : Fin 1024, x0 (lidx_main_v23 (ix2 p q) k) * val_main_v22 (F := Ideal) x1 x2 x3 x4 x5 x6 x7 (ridx_main_v23 (ix2 p q) k)
      = x0 (ix2 p k) * Cert.Hyper.weight (fun j t => x2 (ix2 j t)) (fun j => x3 (ix1 j)) (fun k j => x4 (ix2 k j)) (fun k => x5 (ix1 k))
          (fun k => x6 (ix2 (0 : Fin 1) k)) (x7 (ix1 (0 : Fin 1))) (fun t => x1 (ix2 (Cert.Hyper.flat q k) t)) := by
    intro k
    have e1 : lidx_main_v23 (ix2 p q) k = ix2 p k := funext fun a => by
      match a with
      | ⟨0, _⟩ => rfl
      | ⟨1, _⟩ => rfl
    have e2 : ridx_main_v23 (ix2 p q) k = ix2 k q := funext fun a => by
      match a with
      | ⟨0, _⟩ => rfl
      | ⟨1, _⟩ => rfl
    rw [e1, e2, weightMat]
  have hb : idx_main_v24 (idx_main_v25 (ix2 p q)) = ix1 q := funext fun a => by
    match a with
    | ⟨0, _⟩ => rfl
  rw [hb, Finset.sum_congr rfl fun k _ => hs k]

end Cert.ReferenceIdeal.RefValue

end
-- ==== Proof.lean ====
/-
  The certificate of a two-stage kernel against its reference.

  The kernel computes, in a first pallas_call, a three-layer perceptron (two sine layers `sin (30 · (a · wᵀ + b))` of
  width 64 and an affine read-out) on every row of an embedding table of `1024 · 1024` rows, tiled 4096 rows at a time; the
  host reads the resulting column row-major as a `1024 × 1024` weight matrix `W`; a second pallas_call forms
  `x · Wᵀ + bias`, tiled 1024 rows of `x` at a time. The reference computes the same with whole-array products.

  On the extended reals both are one function of the nine arguments (`Cert.Hyper.result`): a change of float format is
  the identity, a product into a zero accumulator and the host's product are the same sum over the contracted index, a
  transposed operand only renames that sum's factors, and tiling does not change which entries are summed. No law that
  needs finiteness is used, so the precondition is never opened. The idealization rewrote nothing, so `preserves` is
  trivial; the three frames are the generated frame certificates and the reference's generated run.
-/
import proofs.«131566_j13529146982441_2_alg».proof.Defs
import proofs.«131566_j13529146982441_2_alg».proof.Proof.Gen.Kernel
import proofs.«131566_j13529146982441_2_alg».proof.Proof.Gen.Kernel.Skeleton
import proofs.«131566_j13529146982441_2_alg».proof.Proof.Gen.Kernel.Launch
import proofs.«131566_j13529146982441_2_alg».proof.Proof.Gen.Kernel.Points
import proofs.«131566_j13529146982441_2_alg».proof.Proof.Gen.Kernel.Frame
import proofs.«131566_j13529146982441_2_alg».proof.Proof.Gen.KernelIdeal
import proofs.«131566_j13529146982441_2_alg».proof.Proof.Gen.KernelIdeal.Skeleton
import proofs.«131566_j13529146982441_2_alg».proof.Proof.Gen.KernelIdeal.Launch
import proofs.«131566_j13529146982441_2_alg».proof.Proof.Gen.KernelIdeal.Points
import proofs.«131566_j13529146982441_2_alg».proof.Proof.Gen.KernelIdeal.Frame
import proofs.«131566_j13529146982441_2_alg».proof.Proof.Gen.ReferenceIdeal
import proofs.«131566_j13529146982441_2_alg».proof.Proof.Gen.ReferenceIdeal.Run
import proofs.«131566_j13529146982441_2_alg».proof.Proof.Gen.ReferenceIdeal.Read
import proofs.«131566_j13529146982441_2_alg».proof.Proof.Gen.Pre_finite_inputs
import proofs.«131566_j13529146982441_2_alg».proof.Proof.KernelRun
import proofs.«131566_j13529146982441_2_alg».proof.Proof.KernelValue
import proofs.«131566_j13529146982441_2_alg».proof.Proof.RefValue
import Idealize.ShloMosaic.Adequacy
import Idealize.ShloMosaic.Init

noncomputable section

namespace Cert.Proof

open Idealize.ShloMosaic Idealize.ShloMosaic.TcCoe Idealize.ShloMosaic.ValueIdx Idealize.SL.Sem

section Claims

variable [hKernel : Cert.Kernel.Facts] [hKernelIdeal : Cert.KernelIdeal.Facts] [hReferenceIdeal : Cert.ReferenceIdeal.Facts]
  [hPre : Cert.Pre_finite_inputs.Facts]

/-- The printed kernel runs and keeps its arguments: its generated frame certificate. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the specification's `result` of those arguments:
    the kernel's by its run with the result named and the value of what it returns, the reference's by its generated run
    read one operation at a time. -/
theorem algebraic : Cert.algebraic_KernelIdeal_ReferenceIdeal := by
  intro m ρ m' ρ' _ hagree
  refine ⟨fun c => Cert.KernelIdeal.Gen.W4 m ρ c (Proc.devRef .tc Cert.KernelIdeal.main_v9), ?_, ?_⟩
  · exact Cert.KernelIdeal.Named.run m ρ
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v26_eq, Cert.ReferenceIdeal.RefValue.ref_result]
    refine Eq.trans ?_ (Cert.KernelIdeal.Whole.result_eq m ρ c).symm
    obtain ⟨a0, a1, a2, a3, a4, a5, a6, a7, a8⟩ := hagree c
    rw [a0, a1, a2, a3, a4, a5, a6, a7, a8]
    rfl

end Claims

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
